-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S_ : Shape := ⟨0, ![]⟩
abbrev S3072 : Shape := ⟨1, ![3072]⟩
abbrev S1x3072 : Shape := ⟨2, ![1, 3072]⟩
abbrev S8192x3072 : Shape := ⟨2, ![8192, 3072]⟩
abbrev S4x2048x3072 : Shape := ⟨3, ![4, 2048, 3072]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1x1024 : Shape := ⟨2, ![1, 1024]⟩

abbrev nBuf : Space → Nat
  | .hbm => 24
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S1024x1024, .f32⟩
  | .hbm, ⟨13, _⟩ => ⟨S1024x1024, .bf16⟩
  | .hbm, ⟨14, _⟩ => ⟨S_, .f32⟩
  | .hbm, ⟨15, _⟩ => ⟨S3072, .f32⟩
  | .hbm, ⟨16, _⟩ => ⟨S1x3072, .f32⟩
  | .hbm, ⟨17, _⟩ => ⟨S8192x3072, .bf16⟩
  | .hbm, ⟨18, _⟩ => ⟨S4x2048x3072, .bf16⟩
  | .hbm, ⟨19, _⟩ => ⟨S4x2048x1024, .bf16⟩
  | .hbm, ⟨20, _⟩ => ⟨S8192x1024, .bf16⟩
  | .hbm, ⟨21, _⟩ => ⟨S1x1024, .f32⟩
  | .hbm, ⟨22, _⟩ => ⟨S8192x1024, .f32⟩
  | .hbm, ⟨23, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  bcast_S_S3072 : S_.BroadcastsInDim S3072 (![] : Fin 0 → Fin S3072.rank)
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  packedbf16_S1024x3072_S1024x3072_0_0 : (Rect.unit (s := S1024x3072) ![0, 0] S1024x3072.size inb_S1024x3072_S1024x3072_0_0).PackedRows (EltTy.packing .bf16)
  shapeCasts_S8192x3072_S4x2048x3072 : S8192x3072.ShapeCasts S4x2048x3072
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S1024x128_o0_0_S1024x64 : S1024x128.Slices ![0, 0] S1024x64
  slices_S2048x128_o0_0_S2048x64 : S2048x128.Slices ![0, 0] S2048x64
  reduces_S1024x2048_S1024 : S1024x2048.Reduces [1] S1024
  shapeCasts_S1024_S1024x1 : S1024.ShapeCasts S1024x1
  broadcasts_S1024x1_S1024x2048 : S1024x1.Broadcasts S1024x2048
  slices_S1024x128_o0_64_S1024x64 : S1024x128.Slices ![0, 64] S1024x64
  slices_S2048x128_o0_64_S2048x64 : S2048x128.Slices ![0, 64] S2048x64
  concatenates_S1024x64_S1024x64_S1024x128_d1 : Shape.Concatenates [S1024x64, S1024x64] S1024x128 1
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S1024x3072_S1024x3072_1_0_0_1_n_n_wf : DotDims.WF S1024x1024 S1024x3072 S1024x3072 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S8192x3072.size a
  hwx0_3 : ∀ i : grid0.Coords, EltTy.bits .bf16 = 32 ∨ (Rect.block (s := S8192x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x2048x3072.size a
  hwx1_0 : ∀ i : grid1.Coords, EltTy.bits .bf16 = 32 ∨ (Rect.block (s := S4x2048x3072) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x2048x1024.size a
  hwx1_3 : ∀ i : grid1.Coords, EltTy.bits .bf16 = 32 ∨ (Rect.block (s := S4x2048x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S4x2048x1024, .f32⟩
  | .hbm, ⟨10, _⟩ => ⟨S4x2048x16x64, .f32⟩
  | .hbm, ⟨11, _⟩ => ⟨S4x16x2048x64, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S_, .f32⟩
  | .hbm, ⟨16, _⟩ => ⟨S4x16x2048x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x64 : S_.BroadcastsInDim S4x16x2048x64 (![] : Fin 0 → Fin S4x16x2048x64.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Body0K.lean ====
/- Region 0 of the program (the fused projection of a row block onto the three concatenated weight matrices, plus the bias row): the pipeline's proof data at the contents the TensorCore's
   buffers hold when the region is entered, and the body obligation. The body reads each input's staging buffer whole,
   computes one value from the three, and writes it over the output's staging buffer whole; so after the body every
   input's buffer still holds its block and the output's holds that one value of the three input blocks. -/
import proofs.«162190_j88794153877525_2_alg».proof.Proof.Gen.Kernel.Launch
import proofs.«162190_j88794153877525_2_alg».proof.Proof.Gen.Kernel.Skeleton
import proofs.«162190_j88794153877525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there, for any proof data whose array is the entry contents' (`hA`) and whose body leaves the block in place
    (`hafter`): where it was not fetched the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there, for any proof data whose array is the entry contents' (`hA`) and whose body leaves the block in place
    (`hafter`): where it was not fetched the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there, for any proof data whose array is the entry contents' (`hA`) and whose body leaves the block in place
    (`hafter`): where it was not fetched the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer through the rectangle that is the whole of it -/

abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1024x3072 := Rect.unit (s := S1024x3072) ![0, 0] S1024x3072.size inb_S1024x3072_S1024x3072_0_0

/-! ## What the body leaves in the output window's buffer -/

/-- The output's staging buffer after the body, from the three input blocks: the body's one store, through the whole
    rectangle, of its one computed value of the three loads. -/
def out0_3 (x0 : Vec F S1024x1024 .f32) (x1 : Vec F S1024x3072 .bf16) (x2 : Vec F S1x3072 .f32) : Vec F S1024x3072 .bf16 :=
  View.canon [⟨r0_3, k0_pay1 (View.ld x0 r0_0) (View.ld x1 r0_1) (View.ld x2 r0_2)⟩]

/-- The one store is through the whole rectangle, so it covers the buffer. -/
theorem cover0_3 (p0 : Vec F S1024x3072 .bf16) (y : S1024x3072.Idx) :
    ∃ pc ∈ ([⟨r0_3, p0⟩] : List (View.Piece (Elt F) S1024x3072 .bf16)), y ∈ pc.1.set :=
  View.cover_of_tiled [⟨r0_3, p0⟩] S1024x3072.size (by rfl) y

/-! ## The body's triple -/

set_option maxHeartbeats 1000000 in
/-- The kernel body on whole staging memrefs, the inputs' at read contents `x0 x1 x2` and the output's at anything, runs to
    the continuation holding the inputs' as they were and the output's at `out0_3 x0 x1 x2`. -/
theorem sound_kernel0 (c : Dev nD) (E : Set ℕ) (i : grid0.Coords) (arg1 : Memref sig .tc .vmem S1024x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1024x3072 .bf16) (harg4 : arg4.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the three input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Body1K.lean ====
/- Region 1 of the program (attention for one pair of heads: a block of query rows against all the key and value rows of the pair, head by head, the two heads' results side by side): the pipeline's proof data at the contents the TensorCore's
   buffers hold when the region is entered, and the body obligation. The body reads each input's staging buffer whole,
   computes one value from the three, and writes it over the output's staging buffer whole; so after the body every
   input's buffer still holds its block and the output's holds that one value of the three input blocks. -/
import proofs.«162190_j88794153877525_2_alg».proof.Proof.Gen.Kernel.Launch
import proofs.«162190_j88794153877525_2_alg».proof.Proof.Gen.Kernel.Skeleton
import proofs.«162190_j88794153877525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there, for any proof data whose array is the entry contents' (`hA`) and whose body leaves the block in place
    (`hafter`): where it was not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there, for any proof data whose array is the entry contents' (`hA`) and whose body leaves the block in place
    (`hafter`): where it was not fetched the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there, for any proof data whose array is the entry contents' (`hA`) and whose body leaves the block in place
    (`hafter`): where it was not fetched the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer through the rectangle that is the whole of it -/

abbrev r1_0 : Rect S1x1024x128 := Rect.unit (s := S1x1024x128) ![0, 0, 0] S1x1024x128.size inb_S1x1024x128_S1x1024x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x1024x128 := Rect.unit (s := S1x1024x128) ![0, 0, 0] S1x1024x128.size inb_S1x1024x128_S1x1024x128_0_0_0

/-! ## What the body leaves in the output window's buffer -/

/-- The output's staging buffer after the body, from the three input blocks: the body's one store, through the whole
    rectangle, of its one computed value of the three loads. -/
def out1_3 (x0 : Vec F S1x1024x128 .bf16) (x1 : Vec F S1x2048x128 .bf16) (x2 : Vec F S1x2048x128 .bf16) : Vec F S1x1024x128 .bf16 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1))⟩]

/-- The one store is through the whole rectangle, so it covers the buffer. -/
theorem cover1_3 (p0 : Vec F S1x1024x128 .bf16) (y : S1x1024x128.Idx) :
    ∃ pc ∈ ([⟨r1_3, p0⟩] : List (View.Piece (Elt F) S1x1024x128 .bf16)), y ∈ pc.1.set :=
  View.cover_of_tiled [⟨r1_3, p0⟩] S1x1024x128.size (by rfl) y

/-! ## The body's triple -/

set_option maxHeartbeats 1000000 in
/-- The kernel body on whole staging memrefs, the inputs' at read contents `x0 x1 x2` and the output's at anything, runs to
    the continuation holding the inputs' as they were and the output's at `out1_3 x0 x1 x2`. -/
theorem sound_kernel1 (c : Dev nD) (E : Set ℕ) (i : grid1.Coords) (arg3 : Memref sig .tc .vmem S1x1024x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1024x128 .bf16) (harg6 : arg6.IsWhole)
    (x0 : Vec F S1x1024x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attention_kernel i arg3 harg3 arg4 harg4 arg5 harg5 arg6 harg6) K := by
  simp only [cc1__attention_kernel_eq_skeleton]; unfold cc1__attention_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the three input blocks; the invariant the scoped rest
    and the generator register, untouched; nothing owed; the arrays' shares a parameter (the three input windows read one array). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = out1_3 (iblk1 V c 0 t) (iblk1 V c 1 t) (iblk1 V c 2 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the inputs' memrefs hold their blocks, so the body's triple applies; the invariant and the
    core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Cert.Kernel.Hand

end
-- ==== Proof.Body2K.lean ====
/- Region 2 of the program (the output projection of a row block of the merged heads onto the output weight matrix, plus the bias row): the pipeline's proof data at the contents the TensorCore's
   buffers hold when the region is entered, and the body obligation. The body reads each input's staging buffer whole,
   computes one value from the three, and writes it over the output's staging buffer whole; so after the body every
   input's buffer still holds its block and the output's holds that one value of the three input blocks. -/
import proofs.«162190_j88794153877525_2_alg».proof.Proof.Gen.Kernel.Launch
import proofs.«162190_j88794153877525_2_alg».proof.Proof.Gen.Kernel.Skeleton
import proofs.«162190_j88794153877525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there, for any proof data whose array is the entry contents' (`hA`) and whose body leaves the block in place
    (`hafter`): where it was not fetched the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not the pipeline fetched it
    there, for any proof data whose array is the entry contents' (`hA`) and whose body leaves the block in place
    (`hafter`): where it was not fetched the block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not the pipeline fetched it
    there, for any proof data whose array is the entry contents' (`hA`) and whose body leaves the block in place
    (`hafter`): where it was not fetched the block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer through the rectangle that is the whole of it -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the output window's buffer -/

/-- The output's staging buffer after the body, from the three input blocks: the body's one store, through the whole
    rectangle, of its one computed value of the three loads. -/
def out2_3 (x0 : Vec F S1024x1024 .bf16) (x1 : Vec F S1024x1024 .bf16) (x2 : Vec F S1x1024 .f32) : Vec F S1024x1024 .f32 :=
  View.canon [⟨r2_3, k2_pay1 (View.ld x0 r2_0) (View.ld x1 r2_1) (View.ld x2 r2_2)⟩]

/-- The one store is through the whole rectangle, so it covers the buffer. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

/-! ## The body's triple -/

set_option maxHeartbeats 1000000 in
/-- The kernel body on whole staging memrefs, the inputs' at read contents `x0 x1 x2` and the output's at anything, runs to
    the continuation holding the inputs' as they were and the output's at `out2_3 x0 x1 x2`. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the three input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.RunChainK.lean ====
/-
  The program's run as a chain of segments: four stretches of host operations around three kernel regions.

  Between two segments a core holds every unscoped buffer at a known contents: the launch contents, then each host
  stretch's operations applied in order, then, after a region, the same contents with the region's ONE output array
  replaced by what its write-backs leave (every other array of a region is an input and ends as it was found).
  The second region hands one array to three input windows: at its entry that buffer is split into three shares, one
  per window, and at its exit the three shares, all still at the entry contents, are joined again.
  The run ends with every unscoped buffer at the last contents, from which both the unchanged arguments and the
  result array are read.
-/
import proofs.«162190_j88794153877525_2_alg».proof.Proof.Body0K
import proofs.«162190_j88794153877525_2_alg».proof.Proof.Body1K
import proofs.«162190_j88794153877525_2_alg».proof.Proof.Body2K
import proofs.«162190_j88794153877525_2_alg».proof.Proof.Gen.Kernel.Launch
import proofs.«162190_j88794153877525_2_alg».proof.Proof.Gen.Kernel.Skeleton
import proofs.«162190_j88794153877525_2_alg».proof.Proof.Gen.Kernel.Points
import proofs.«162190_j88794153877525_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- A valuation read at the TensorCore's references. -/
abbrev atTc (W : Dev nD → Valuation τ sig (Elt F)) : (c : Dev nD) → (b : Ref sig .tc) → Buf (Elt F) ((c : Thread nD τ).loc b) :=
  fun c b => W c b

/-- The three shares the second region's input windows hold their common array at. -/
def q1 : Fin cfg1.W → PosShare TreeShare := fun w => match w with
  | ⟨0, _⟩ => fullShare.left
  | ⟨1, _⟩ => fullShare.right.left
  | ⟨2, _⟩ => fullShare.right.right
  | ⟨_ + 3, _⟩ => fullShare

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- After the first region: its output array at what its write-backs leave. -/
def W2 (c : Dev nD) : Valuation τ sig (Elt F) :=
  Function.update (W1 m ρ c) (Proc.devRef .tc main_v10) ((dat0 (atTc (W1 m ρ)) c).arrAt 3 cfg0.N)
/-- After the second host stretch (the second region's entry). -/
abbrev W3 : Dev nD → Valuation τ sig (Elt F) := fun c => StableHlo.after hostOps1 (W2 m ρ c)
/-- After the second region. -/
def W4 (c : Dev nD) : Valuation τ sig (Elt F) :=
  Function.update (W3 m ρ c) (Proc.devRef .tc main_v12) ((dat1 (atTc (W3 m ρ)) q1 c).arrAt 3 cfg1.N)
/-- After the third host stretch (the third region's entry). -/
abbrev W5 : Dev nD → Valuation τ sig (Elt F) := fun c => StableHlo.after hostOps2 (W4 m ρ c)
/-- After the third region. -/
def W6 (c : Dev nD) : Valuation τ sig (Elt F) :=
  Function.update (W5 m ρ c) (Proc.devRef .tc main_v15) ((dat2 (atTc (W5 m ρ)) c).arrAt 3 cfg2.N)
/-- After the last host stretch: the end. -/
abbrev W7 : Dev nD → Valuation τ sig (Elt F) := fun c => StableHlo.after hostOps3 (W6 m ρ c)

theorem W2_out (c : Dev nD) : W2 m ρ c (Proc.devRef .tc main_v10) = (dat0 (atTc (W1 m ρ)) c).arrAt 3 cfg0.N := by
  unfold W2; exact Function.update_self ..
theorem W2_of_ne (c : Dev nD) (b : Ref sig .tc) (hb : b ≠ main_v10) : W2 m ρ c (Proc.devRef .tc b) = W1 m ρ c (Proc.devRef .tc b) := by
  unfold W2; exact Function.update_of_ne (StableHlo.devRef_ne_of_ne hb) ..
theorem W4_out (c : Dev nD) : W4 m ρ c (Proc.devRef .tc main_v12) = (dat1 (atTc (W3 m ρ)) q1 c).arrAt 3 cfg1.N := by
  unfold W4; exact Function.update_self ..
theorem W4_of_ne (c : Dev nD) (b : Ref sig .tc) (hb : b ≠ main_v12) : W4 m ρ c (Proc.devRef .tc b) = W3 m ρ c (Proc.devRef .tc b) := by
  unfold W4; exact Function.update_of_ne (StableHlo.devRef_ne_of_ne hb) ..
theorem W6_out (c : Dev nD) : W6 m ρ c (Proc.devRef .tc main_v15) = (dat2 (atTc (W5 m ρ)) c).arrAt 3 cfg2.N := by
  unfold W6; exact Function.update_self ..
theorem W6_of_ne (c : Dev nD) (b : Ref sig .tc) (hb : b ≠ main_v15) : W6 m ρ c (Proc.devRef .tc b) = W5 m ρ c (Proc.devRef .tc b) := by
  unfold W6; exact Function.update_of_ne (StableHlo.devRef_ne_of_ne hb) ..

end Cert.Kernel.Hand

end
-- ==== Proof.RunRegions02K.lean ====
/-
  The three kernel regions as segments of the run, and the proof data of every pipeline.

  A region is entered from the thread state "every unscoped buffer at the contents before it, the generator register at
  some state, nothing owed" and left at the same state over the contents after it. At entry the region's arrays are
  split out of the unscoped buffers; at exit they are put back, the output array at what the write-backs leave.
-/
import proofs.«162190_j88794153877525_2_alg».proof.Proof.RunChainK
import proofs.«162190_j88794153877525_2_alg».proof.Proof.Gen.Kernel.Launch
import proofs.«162190_j88794153877525_2_alg».proof.Proof.Gen.Kernel.Skeleton
import proofs.«162190_j88794153877525_2_alg».proof.Proof.Gen.Kernel.Points
import proofs.«162190_j88794153877525_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (atTc (W1 m ρ)) c
  | ⟨1, _⟩ => fun c => dat1 (atTc (W3 m ρ)) q1 c
  | ⟨2, _⟩ => fun c => dat2 (atTc (W5 m ρ)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W7 m ρ c) ∗ ∃ r, prngReg c r)

/-! ## The first and third regions: distinct arrays -/

theorem hF0 (c : Dev nD) (w : Fin cfg0.W) :
    (dat0 (atTc (W1 m ρ)) c).arrAt w cfg0.N = atTc (W2 m ρ) c (Pipeline.arrRef spec0 w) :=
  match w with
  | ⟨0, _⟩ => ((dat0 (atTc (W1 m ρ)) c).arrAt_in 0 rfl _).trans ((A_eq0 (atTc (W1 m ρ)) c 0).trans (W2_of_ne m ρ c main_v0 (by decide)).symm)
  | ⟨1, _⟩ => ((dat0 (atTc (W1 m ρ)) c).arrAt_in 1 rfl _).trans ((A_eq0 (atTc (W1 m ρ)) c 1).trans (W2_of_ne m ρ c main_v5 (by decide)).symm)
  | ⟨2, _⟩ => ((dat0 (atTc (W1 m ρ)) c).arrAt_in 2 rfl _).trans ((A_eq0 (atTc (W1 m ρ)) c 2).trans (W2_of_ne m ρ c main_v9 (by decide)).symm)
  | ⟨3, _⟩ => (W2_out m ρ c).symm
theorem hrest0 (c : Dev nD) : ∀ b, b ∉ Finset.univ.image (Pipeline.arrRef spec0) → atTc (W2 m ρ) c b = atTc (W1 m ρ) c b :=
  fun b hb => W2_of_ne m ρ c b fun e => hb (Finset.mem_image.mpr ⟨3, Finset.mem_univ _, e.symm⟩)

theorem hF2 (c : Dev nD) (w : Fin cfg2.W) :
    (dat2 (atTc (W5 m ρ)) c).arrAt w cfg2.N = atTc (W6 m ρ) c (Pipeline.arrRef spec2 w) :=
  match w with
  | ⟨0, _⟩ => ((dat2 (atTc (W5 m ρ)) c).arrAt_in 0 rfl _).trans ((A_eq2 (atTc (W5 m ρ)) c 0).trans (W6_of_ne m ρ c main_v13 (by decide)).symm)
  | ⟨1, _⟩ => ((dat2 (atTc (W5 m ρ)) c).arrAt_in 1 rfl _).trans ((A_eq2 (atTc (W5 m ρ)) c 1).trans (W6_of_ne m ρ c main_v7 (by decide)).symm)
  | ⟨2, _⟩ => ((dat2 (atTc (W5 m ρ)) c).arrAt_in 2 rfl _).trans ((A_eq2 (atTc (W5 m ρ)) c 2).trans (W6_of_ne m ρ c main_v14 (by decide)).symm)
  | ⟨3, _⟩ => (W6_out m ρ c).symm
theorem hrest2 (c : Dev nD) : ∀ b, b ∉ Finset.univ.image (Pipeline.arrRef spec2) → atTc (W6 m ρ) c b = atTc (W5 m ρ) c b :=
  fun b hb => W6_of_ne m ρ c b fun e => hb (Finset.mem_image.mpr ⟨3, Finset.mem_univ _, e.symm⟩)

set_option backward.isDefEq.respectTransparency.types false in
/-- The first region: entered from the contents after the first host stretch, left with its output array written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (atTc (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (atTc (W1 m ρ) c) (atTc (W2 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered from the contents after the third host stretch, left with its output array written. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W5 m ρ)) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (atTc (W5 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (atTc (W5 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (atTc (W5 m ρ) c) (atTc (W6 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.RunRegion1K.lean ====
/-
  The second kernel region as a segment of the run. Its three input windows read ONE array: at entry the buffer behind it,
  held whole, is split into three shares, one per window; the windows never write it, so at exit the three shares still
  hold the entry contents and are joined again. The output window's array is put back at what the write-backs leave.
-/
import proofs.«162190_j88794153877525_2_alg».proof.Proof.RunRegions02K
import proofs.«162190_j88794153877525_2_alg».proof.Proof.Gen.Kernel.Launch
import proofs.«162190_j88794153877525_2_alg».proof.Proof.Gen.Kernel.Skeleton
import proofs.«162190_j88794153877525_2_alg».proof.Proof.Gen.Kernel.Points
import proofs.«162190_j88794153877525_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the second region's arrays: the shared input array and the output array. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v11) ↦{fullShare} V main_v11) ∗ (((c : Thread nD τ).loc main_v12) ↦{fullShare} V main_v12)) := by
  unfold Pipeline.arrBufs
  exact bigSep_eq_bigSepL_of_eq [main_v11, main_v12] (by decide) (by decide) _

/-- The second region's arrays, window by window, each at its share. -/
theorem arrays1_eq (V : (c : Dev nD) → (b : Ref sig .tc) → Buf (Elt F) ((c : Thread nD τ).loc b)) (c : Dev nD)
    (Fs : (w : Fin cfg1.W) → Buf (Elt F) ((cfg1.win w).arr.view.loc (c : Thread nD τ))) :
    ((dat1 V q1 c).arrays Fs : sProp 𝕄)
      = iprop((((c : Thread nD τ).loc main_v11) ↦{fullShare.left} Fs 0) ∗ (((c : Thread nD τ).loc main_v11) ↦{fullShare.right.left} Fs 1)
          ∗ (((c : Thread nD τ).loc main_v11) ↦{fullShare.right.right} Fs 2) ∗ (((c : Thread nD τ).loc main_v12) ↦{fullShare} Fs 3)) := by
  have h0 : ((cfg1.win 0).arr).IsWhole := arr_whole1 0
  have h3 : ((cfg1.win 3).arr).IsWhole := arr_whole1 3
  unfold Pipeline.Dat.arrays
  rw [bigSep_W1, h0.set_eq_univ, h3.set_eq_univ,
    show (dat1 V q1 c).share 0 = fullShare.left from rfl, show (dat1 V q1 c).share 1 = fullShare.right.left from rfl,
    show (dat1 V q1 c).share 2 = fullShare.right.right from rfl, show (dat1 V q1 c).share 3 = fullShare from rfl]

/-- An input window's array is never written: after any number of write-backs it holds the entry contents. -/
theorem arrAt1_in (V : (c : Dev nD) → (b : Ref sig .tc) → Buf (Elt F) ((c : Thread nD τ).loc b)) (c : Dev nD) (n : ℕ) :
    (dat1 V q1 c).arrAt 0 n = V c main_v11 ∧ (dat1 V q1 c).arrAt 1 n = V c main_v11 ∧ (dat1 V q1 c).arrAt 2 n = V c main_v11 :=
  ⟨((dat1 V q1 c).arrAt_in 0 rfl n).trans (A_eq1 V q1 c 0), ((dat1 V q1 c).arrAt_in 1 rfl n).trans (A_eq1 V q1 c 1),
    ((dat1 V q1 c).arrAt_in 2 rfl n).trans (A_eq1 V q1 c 2)⟩

/-- Before any write-back the output array holds its entry contents. -/
theorem arrAt1_out0 (V : (c : Dev nD) → (b : Ref sig .tc) → Buf (Elt F) ((c : Thread nD τ).loc b)) (c : Dev nD) :
    (dat1 V q1 c).arrAt 3 0 = V c main_v12 := rfl

/-- ENTRY: a core's unscoped buffers at the contents before the region are the region's arrays at their entry contents,
    the shared one in three shares, and the unscoped rest. -/
theorem entry1 (c : Dev nD) :
    (unscopedBufs (Ix := Unit) (Name := ℕ) (U := UR sig nD τ) (Lvl := ℕ) c (atTc (W3 m ρ) c) : sProp 𝕄)
      ⊢ iprop((dat1 (atTc (W3 m ρ)) q1 c).arrays (fun w => (dat1 (atTc (W3 m ρ)) q1 c).arrAt w 0)
          ∗ Pipeline.unscopedRest spec1 c (atTc (W3 m ρ) c)) := by
  rw [Pipeline.unscopedBufs_split₀ cfgs 1 (by decide) c (atTc (W3 m ρ) c)]
  refine sep_mono ?_ .rfl
  show (Pipeline.arrBufs spec1 c (atTc (W3 m ρ) c) : sProp 𝕄) ⊢ _
  rw [arrBufs1_eq, arrays1_eq]
  rw [(arrAt1_in (atTc (W3 m ρ)) c 0).1, (arrAt1_in (atTc (W3 m ρ)) c 0).2.1, (arrAt1_in (atTc (W3 m ρ)) c 0).2.2, arrAt1_out0]
  iintro ⟨H11, H12⟩
  ihave H := (pointsTo_share (PosShare.mem_left_op_right fullShare)).1 $$ H11
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  iexact H12

/-- EXIT: the region's arrays after every write-back and the unscoped rest are the core's unscoped buffers at the contents
    after the region. -/
theorem exit1 (c : Dev nD) :
    iprop((dat1 (atTc (W3 m ρ)) q1 c).arrays (fun w => (dat1 (atTc (W3 m ρ)) q1 c).arrAt w cfg1.N)
        ∗ Pipeline.unscopedRest (Ix := Unit) (Name := ℕ) (U := UR sig nD τ) (Lvl := ℕ) spec1 c (atTc (W3 m ρ) c))
      ⊢ (unscopedBufs c (atTc (W4 m ρ) c) : sProp 𝕄) := by
  rw [Pipeline.unscopedBufs_split₀ cfgs 1 (by decide) c (atTc (W4 m ρ) c)]
  refine sep_mono ?_ (Entails.of_eq ?_)
  · show _ ⊢ (Pipeline.arrBufs spec1 c (atTc (W4 m ρ) c) : sProp 𝕄)
    rw [arrBufs1_eq, arrays1_eq]
    rw [(arrAt1_in (atTc (W3 m ρ)) c cfg1.N).1, (arrAt1_in (atTc (W3 m ρ)) c cfg1.N).2.1, (arrAt1_in (atTc (W3 m ρ)) c cfg1.N).2.2,
      show atTc (W4 m ρ) c main_v11 = atTc (W3 m ρ) c main_v11 from W4_of_ne m ρ c main_v11 (by decide),
      show atTc (W4 m ρ) c main_v12 = (dat1 (atTc (W3 m ρ)) q1 c).arrAt 3 cfg1.N from W4_out m ρ c]
    iintro ⟨Ha, Hb1, Hb2, H12⟩
    isplitl [Ha Hb1 Hb2]
    · iapply (pointsTo_share (PosShare.mem_left_op_right fullShare)).2
      isplitl [Ha]; · iexact Ha
      iapply (pointsTo_share (PosShare.mem_left_op_right fullShare.right)).2
      isplitl [Hb1]; · iexact Hb1
      iexact Hb2
    iexact H12
  · unfold Pipeline.unscopedRest
    exact bigSep_congr fun b hb => by
      rw [show atTc (W4 m ρ) c b = atTc (W3 m ρ) c b from
        W4_of_ne m ρ c b fun e => (Finset.mem_sdiff.mp hb).2 (Finset.mem_image.mpr ⟨3, Finset.mem_univ _, e.symm⟩)]

set_option backward.isDefEq.respectTransparency.types false in
/-- The second region: entered from the contents after the second host stretch, left with its output array written. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (atTc (W3 m ρ)) q1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m ρ) c)
  hentry c := by
    rw [Pipeline.ownSems0_none]
    have hsplit : (unscopedBufs (Ix := Unit) (Name := ℕ) (U := UR sig nD τ) (Lvl := ℕ) c (atTc (W3 m ρ) c) : sProp 𝕄)
        ⊢ iprop((pdats m ρ 1 c).arrays (fun x => (pdats m ρ 1 c).arrAt x 0)
          ∗ Pipeline.unscopedRest spec1 c (atTc (W3 m ρ) c)) := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays (fun x => (pdats m ρ 1 c).arrAt x (Pipeline.pin (pcfgs (F := F)) adm 1).N)
        ∗ Pipeline.unscopedRest (Ix := Unit) (Name := ℕ) (U := UR sig nD τ) (Lvl := ℕ) spec1 c (atTc (W3 m ρ) c))
        ⊢ (unscopedBufs c (atTc (W4 m ρ) c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.RunMainK.lean ====
/-
  The run of the whole program: the launch over its seven segments. Every weakly fair execution terminates, nothing
  faulting, with every unscoped buffer at the last contents of the chain. No host operation and no region writes an
  argument array, so each argument is read back through the chain to its launch contents.
-/
import proofs.«162190_j88794153877525_2_alg».proof.Proof.RunRegion1K
import proofs.«162190_j88794153877525_2_alg».proof.Proof.Gen.Kernel.Launch
import proofs.«162190_j88794153877525_2_alg».proof.Proof.Gen.Kernel.Skeleton
import proofs.«162190_j88794153877525_2_alg».proof.Proof.Gen.Kernel.Points
import proofs.«162190_j88794153877525_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at the chain's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## What no segment writes -/

/-- A buffer that no host stretch writes and that is no region's output array ends as launched. -/
theorem W7_kept (c : Dev nD) (r : Ref sig .tc) (h0 : r ∉ hostOps0_W) (h1 : r ∉ hostOps1_W) (h2 : r ∉ hostOps2_W) (h3 : r ∉ hostOps3_W)
    (n10 : r ≠ main_v10) (n12 : r ≠ main_v12) (n15 : r ≠ main_v15) :
    W7 m ρ c (Proc.devRef .tc r) = m ((c : Thread nD τ).loc r) :=
  (StableHlo.after_of_writes_sub hostOps3 _ hostOps3_writes h3).trans <| (W6_of_ne m ρ c r n15).trans <|
    (StableHlo.after_of_writes_sub hostOps2 _ hostOps2_writes h2).trans <| (W4_of_ne m ρ c r n12).trans <|
    (StableHlo.after_of_writes_sub hostOps1 _ hostOps1_writes h1).trans <| (W2_of_ne m ρ c r n10).trans <|
    (StableHlo.after_of_writes_sub hostOps0 _ hostOps0_writes h0).trans rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_kept m ρ c main_arg0 (by decide) (by decide) (by decide) (by decide) (by decide) (by decide) (by decide)),
     (h c _ (mem_uc main_arg1 (by decide))).trans (W7_kept m ρ c main_arg1 (by decide) (by decide) (by decide) (by decide) (by decide) (by decide) (by decide)),
     (h c _ (mem_uc main_arg2 (by decide))).trans (W7_kept m ρ c main_arg2 (by decide) (by decide) (by decide) (by decide) (by decide) (by decide) (by decide)),
     (h c _ (mem_uc main_arg3 (by decide))).trans (W7_kept m ρ c main_arg3 (by decide) (by decide) (by decide) (by decide) (by decide) (by decide) (by decide)),
     (h c _ (mem_uc main_arg4 (by decide))).trans (W7_kept m ρ c main_arg4 (by decide) (by decide) (by decide) (by decide) (by decide) (by decide) (by decide)),
     (h c _ (mem_uc main_arg5 (by decide))).trans (W7_kept m ρ c main_arg5 (by decide) (by decide) (by decide) (by decide) (by decide) (by decide) (by decide))⟩)
    (run_main m ρ)

end Cert.Kernel.Hand

end
-- ==== Proof.Body0.lean ====
/- Region 0 of the program (the fused projection of a row block onto the three concatenated weight matrices, plus the bias row): the pipeline's proof data at the contents the TensorCore's
   buffers hold when the region is entered, and the body obligation. The body reads each input's staging buffer whole,
   computes one value from the three, and writes it over the output's staging buffer whole; so after the body every
   input's buffer still holds its block and the output's holds that one value of the three input blocks. -/
import proofs.«162190_j88794153877525_2_alg».proof.Proof.Gen.KernelIdeal.Launch
import proofs.«162190_j88794153877525_2_alg».proof.Proof.Gen.KernelIdeal.Skeleton
import proofs.«162190_j88794153877525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there, for any proof data whose array is the entry contents' (`hA`) and whose body leaves the block in place
    (`hafter`): where it was not fetched the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there, for any proof data whose array is the entry contents' (`hA`) and whose body leaves the block in place
    (`hafter`): where it was not fetched the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there, for any proof data whose array is the entry contents' (`hA`) and whose body leaves the block in place
    (`hafter`): where it was not fetched the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer through the rectangle that is the whole of it -/

abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1024x3072 := Rect.unit (s := S1024x3072) ![0, 0] S1024x3072.size inb_S1024x3072_S1024x3072_0_0

/-! ## What the body leaves in the output window's buffer -/

/-- The output's staging buffer after the body, from the three input blocks: the body's one store, through the whole
    rectangle, of its one computed value of the three loads. -/
def out0_3 (x0 : Vec F S1024x1024 .f32) (x1 : Vec F S1024x3072 .bf16) (x2 : Vec F S1x3072 .f32) : Vec F S1024x3072 .bf16 :=
  View.canon [⟨r0_3, k0_pay1 (View.ld x0 r0_0) (View.ld x1 r0_1) (View.ld x2 r0_2)⟩]

/-- The one store is through the whole rectangle, so it covers the buffer. -/
theorem cover0_3 (p0 : Vec F S1024x3072 .bf16) (y : S1024x3072.Idx) :
    ∃ pc ∈ ([⟨r0_3, p0⟩] : List (View.Piece (Elt F) S1024x3072 .bf16)), y ∈ pc.1.set :=
  View.cover_of_tiled [⟨r0_3, p0⟩] S1024x3072.size (by rfl) y

/-! ## The body's triple -/

set_option maxHeartbeats 1000000 in
/-- The kernel body on whole staging memrefs, the inputs' at read contents `x0 x1 x2` and the output's at anything, runs to
    the continuation holding the inputs' as they were and the output's at `out0_3 x0 x1 x2`. -/
theorem sound_kernel0 (c : Dev nD) (E : Set ℕ) (i : grid0.Coords) (arg1 : Memref sig .tc .vmem S1024x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1024x3072 .bf16) (harg4 : arg4.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the three input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/- Region 1 of the program (attention for one pair of heads: a block of query rows against all the key and value rows of the pair, head by head, the two heads' results side by side): the pipeline's proof data at the contents the TensorCore's
   buffers hold when the region is entered, and the body obligation. The body reads each input's staging buffer whole,
   computes one value from the three, and writes it over the output's staging buffer whole; so after the body every
   input's buffer still holds its block and the output's holds that one value of the three input blocks. -/
import proofs.«162190_j88794153877525_2_alg».proof.Proof.Gen.KernelIdeal.Launch
import proofs.«162190_j88794153877525_2_alg».proof.Proof.Gen.KernelIdeal.Skeleton
import proofs.«162190_j88794153877525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there, for any proof data whose array is the entry contents' (`hA`) and whose body leaves the block in place
    (`hafter`): where it was not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there, for any proof data whose array is the entry contents' (`hA`) and whose body leaves the block in place
    (`hafter`): where it was not fetched the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there, for any proof data whose array is the entry contents' (`hA`) and whose body leaves the block in place
    (`hafter`): where it was not fetched the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer through the rectangle that is the whole of it -/

abbrev r1_0 : Rect S1x1024x128 := Rect.unit (s := S1x1024x128) ![0, 0, 0] S1x1024x128.size inb_S1x1024x128_S1x1024x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x1024x128 := Rect.unit (s := S1x1024x128) ![0, 0, 0] S1x1024x128.size inb_S1x1024x128_S1x1024x128_0_0_0

/-! ## What the body leaves in the output window's buffer -/

/-- The output's staging buffer after the body, from the three input blocks: the body's one store, through the whole
    rectangle, of its one computed value of the three loads. -/
def out1_3 (x0 : Vec F S1x1024x128 .bf16) (x1 : Vec F S1x2048x128 .bf16) (x2 : Vec F S1x2048x128 .bf16) : Vec F S1x1024x128 .bf16 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1))⟩]

/-- The one store is through the whole rectangle, so it covers the buffer. -/
theorem cover1_3 (p0 : Vec F S1x1024x128 .bf16) (y : S1x1024x128.Idx) :
    ∃ pc ∈ ([⟨r1_3, p0⟩] : List (View.Piece (Elt F) S1x1024x128 .bf16)), y ∈ pc.1.set :=
  View.cover_of_tiled [⟨r1_3, p0⟩] S1x1024x128.size (by rfl) y

/-! ## The body's triple -/

set_option maxHeartbeats 1000000 in
/-- The kernel body on whole staging memrefs, the inputs' at read contents `x0 x1 x2` and the output's at anything, runs to
    the continuation holding the inputs' as they were and the output's at `out1_3 x0 x1 x2`. -/
theorem sound_kernel1 (c : Dev nD) (E : Set ℕ) (i : grid1.Coords) (arg3 : Memref sig .tc .vmem S1x1024x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1024x128 .bf16) (harg6 : arg6.IsWhole)
    (x0 : Vec F S1x1024x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attention_kernel i arg3 harg3 arg4 harg4 arg5 harg5 arg6 harg6) K := by
  simp only [cc1__attention_kernel_eq_skeleton]; unfold cc1__attention_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the three input blocks; the invariant the scoped rest
    and the generator register, untouched; nothing owed; the arrays' shares a parameter (the three input windows read one array). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = out1_3 (iblk1 V c 0 t) (iblk1 V c 1 t) (iblk1 V c 2 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the inputs' memrefs hold their blocks, so the body's triple applies; the invariant and the
    core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Cert.KernelIdeal.Hand

end
-- ==== Proof.Body2.lean ====
/- Region 2 of the program (the output projection of a row block of the merged heads onto the output weight matrix, plus the bias row): the pipeline's proof data at the contents the TensorCore's
   buffers hold when the region is entered, and the body obligation. The body reads each input's staging buffer whole,
   computes one value from the three, and writes it over the output's staging buffer whole; so after the body every
   input's buffer still holds its block and the output's holds that one value of the three input blocks. -/
import proofs.«162190_j88794153877525_2_alg».proof.Proof.Gen.KernelIdeal.Launch
import proofs.«162190_j88794153877525_2_alg».proof.Proof.Gen.KernelIdeal.Skeleton
import proofs.«162190_j88794153877525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there, for any proof data whose array is the entry contents' (`hA`) and whose body leaves the block in place
    (`hafter`): where it was not fetched the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not the pipeline fetched it
    there, for any proof data whose array is the entry contents' (`hA`) and whose body leaves the block in place
    (`hafter`): where it was not fetched the block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not the pipeline fetched it
    there, for any proof data whose array is the entry contents' (`hA`) and whose body leaves the block in place
    (`hafter`): where it was not fetched the block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer through the rectangle that is the whole of it -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the output window's buffer -/

/-- The output's staging buffer after the body, from the three input blocks: the body's one store, through the whole
    rectangle, of its one computed value of the three loads. -/
def out2_3 (x0 : Vec F S1024x1024 .bf16) (x1 : Vec F S1024x1024 .bf16) (x2 : Vec F S1x1024 .f32) : Vec F S1024x1024 .f32 :=
  View.canon [⟨r2_3, k2_pay1 (View.ld x0 r2_0) (View.ld x1 r2_1) (View.ld x2 r2_2)⟩]

/-- The one store is through the whole rectangle, so it covers the buffer. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

/-! ## The body's triple -/

set_option maxHeartbeats 1000000 in
/-- The kernel body on whole staging memrefs, the inputs' at read contents `x0 x1 x2` and the output's at anything, runs to
    the continuation holding the inputs' as they were and the output's at `out2_3 x0 x1 x2`. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the three input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RunChain.lean ====
/-
  The idealized program's run as a chain of segments: four stretches of host operations around three kernel regions.

  Between two segments a core holds every unscoped buffer at a known contents: the launch contents, then each host
  stretch's operations applied in order, then, after a region, the same contents with the region's ONE output array
  replaced by what its write-backs leave (every other array of a region is an input and ends as it was found).
  The second region hands one array to three input windows: at its entry that buffer is split into three shares, one
  per window, and at its exit the three shares, all still at the entry contents, are joined again.
  The run ends with every unscoped buffer at the last contents, from which both the unchanged arguments and the
  result array are read.
-/
import proofs.«162190_j88794153877525_2_alg».proof.Proof.Body0
import proofs.«162190_j88794153877525_2_alg».proof.Proof.Body1
import proofs.«162190_j88794153877525_2_alg».proof.Proof.Body2
import proofs.«162190_j88794153877525_2_alg».proof.Proof.Gen.KernelIdeal.Launch
import proofs.«162190_j88794153877525_2_alg».proof.Proof.Gen.KernelIdeal.Skeleton
import proofs.«162190_j88794153877525_2_alg».proof.Proof.Gen.KernelIdeal.Points
import proofs.«162190_j88794153877525_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- A valuation read at the TensorCore's references. -/
abbrev atTc (W : Dev nD → Valuation τ sig (Elt F)) : (c : Dev nD) → (b : Ref sig .tc) → Buf (Elt F) ((c : Thread nD τ).loc b) :=
  fun c b => W c b

/-- The three shares the second region's input windows hold their common array at. -/
def q1 : Fin cfg1.W → PosShare TreeShare := fun w => match w with
  | ⟨0, _⟩ => fullShare.left
  | ⟨1, _⟩ => fullShare.right.left
  | ⟨2, _⟩ => fullShare.right.right
  | ⟨_ + 3, _⟩ => fullShare

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- After the first region: its output array at what its write-backs leave. -/
def W2 (c : Dev nD) : Valuation τ sig (Elt F) :=
  Function.update (W1 m ρ c) (Proc.devRef .tc main_v10) ((dat0 (atTc (W1 m ρ)) c).arrAt 3 cfg0.N)
/-- After the second host stretch (the second region's entry). -/
abbrev W3 : Dev nD → Valuation τ sig (Elt F) := fun c => StableHlo.after hostOps1 (W2 m ρ c)
/-- After the second region. -/
def W4 (c : Dev nD) : Valuation τ sig (Elt F) :=
  Function.update (W3 m ρ c) (Proc.devRef .tc main_v12) ((dat1 (atTc (W3 m ρ)) q1 c).arrAt 3 cfg1.N)
/-- After the third host stretch (the third region's entry). -/
abbrev W5 : Dev nD → Valuation τ sig (Elt F) := fun c => StableHlo.after hostOps2 (W4 m ρ c)
/-- After the third region. -/
def W6 (c : Dev nD) : Valuation τ sig (Elt F) :=
  Function.update (W5 m ρ c) (Proc.devRef .tc main_v15) ((dat2 (atTc (W5 m ρ)) c).arrAt 3 cfg2.N)
/-- After the last host stretch: the end. -/
abbrev W7 : Dev nD → Valuation τ sig (Elt F) := fun c => StableHlo.after hostOps3 (W6 m ρ c)

theorem W2_out (c : Dev nD) : W2 m ρ c (Proc.devRef .tc main_v10) = (dat0 (atTc (W1 m ρ)) c).arrAt 3 cfg0.N := by
  unfold W2; exact Function.update_self ..
theorem W2_of_ne (c : Dev nD) (b : Ref sig .tc) (hb : b ≠ main_v10) : W2 m ρ c (Proc.devRef .tc b) = W1 m ρ c (Proc.devRef .tc b) := by
  unfold W2; exact Function.update_of_ne (StableHlo.devRef_ne_of_ne hb) ..
theorem W4_out (c : Dev nD) : W4 m ρ c (Proc.devRef .tc main_v12) = (dat1 (atTc (W3 m ρ)) q1 c).arrAt 3 cfg1.N := by
  unfold W4; exact Function.update_self ..
theorem W4_of_ne (c : Dev nD) (b : Ref sig .tc) (hb : b ≠ main_v12) : W4 m ρ c (Proc.devRef .tc b) = W3 m ρ c (Proc.devRef .tc b) := by
  unfold W4; exact Function.update_of_ne (StableHlo.devRef_ne_of_ne hb) ..
theorem W6_out (c : Dev nD) : W6 m ρ c (Proc.devRef .tc main_v15) = (dat2 (atTc (W5 m ρ)) c).arrAt 3 cfg2.N := by
  unfold W6; exact Function.update_self ..
theorem W6_of_ne (c : Dev nD) (b : Ref sig .tc) (hb : b ≠ main_v15) : W6 m ρ c (Proc.devRef .tc b) = W5 m ρ c (Proc.devRef .tc b) := by
  unfold W6; exact Function.update_of_ne (StableHlo.devRef_ne_of_ne hb) ..

end Cert.KernelIdeal.Hand

end
-- ==== Proof.RunRegions02.lean ====
/-
  The three kernel regions as segments of the run, and the proof data of every pipeline.

  A region is entered from the thread state "every unscoped buffer at the contents before it, the generator register at
  some state, nothing owed" and left at the same state over the contents after it. At entry the region's arrays are
  split out of the unscoped buffers; at exit they are put back, the output array at what the write-backs leave.
-/
import proofs.«162190_j88794153877525_2_alg».proof.Proof.RunChain
import proofs.«162190_j88794153877525_2_alg».proof.Proof.Gen.KernelIdeal.Launch
import proofs.«162190_j88794153877525_2_alg».proof.Proof.Gen.KernelIdeal.Skeleton
import proofs.«162190_j88794153877525_2_alg».proof.Proof.Gen.KernelIdeal.Points
import proofs.«162190_j88794153877525_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (atTc (W1 m ρ)) c
  | ⟨1, _⟩ => fun c => dat1 (atTc (W3 m ρ)) q1 c
  | ⟨2, _⟩ => fun c => dat2 (atTc (W5 m ρ)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W7 m ρ c) ∗ ∃ r, prngReg c r)

/-! ## The first and third regions: distinct arrays -/

theorem hF0 (c : Dev nD) (w : Fin cfg0.W) :
    (dat0 (atTc (W1 m ρ)) c).arrAt w cfg0.N = atTc (W2 m ρ) c (Pipeline.arrRef spec0 w) :=
  match w with
  | ⟨0, _⟩ => ((dat0 (atTc (W1 m ρ)) c).arrAt_in 0 rfl _).trans ((A_eq0 (atTc (W1 m ρ)) c 0).trans (W2_of_ne m ρ c main_v0 (by decide)).symm)
  | ⟨1, _⟩ => ((dat0 (atTc (W1 m ρ)) c).arrAt_in 1 rfl _).trans ((A_eq0 (atTc (W1 m ρ)) c 1).trans (W2_of_ne m ρ c main_v5 (by decide)).symm)
  | ⟨2, _⟩ => ((dat0 (atTc (W1 m ρ)) c).arrAt_in 2 rfl _).trans ((A_eq0 (atTc (W1 m ρ)) c 2).trans (W2_of_ne m ρ c main_v9 (by decide)).symm)
  | ⟨3, _⟩ => (W2_out m ρ c).symm
theorem hrest0 (c : Dev nD) : ∀ b, b ∉ Finset.univ.image (Pipeline.arrRef spec0) → atTc (W2 m ρ) c b = atTc (W1 m ρ) c b :=
  fun b hb => W2_of_ne m ρ c b fun e => hb (Finset.mem_image.mpr ⟨3, Finset.mem_univ _, e.symm⟩)

theorem hF2 (c : Dev nD) (w : Fin cfg2.W) :
    (dat2 (atTc (W5 m ρ)) c).arrAt w cfg2.N = atTc (W6 m ρ) c (Pipeline.arrRef spec2 w) :=
  match w with
  | ⟨0, _⟩ => ((dat2 (atTc (W5 m ρ)) c).arrAt_in 0 rfl _).trans ((A_eq2 (atTc (W5 m ρ)) c 0).trans (W6_of_ne m ρ c main_v13 (by decide)).symm)
  | ⟨1, _⟩ => ((dat2 (atTc (W5 m ρ)) c).arrAt_in 1 rfl _).trans ((A_eq2 (atTc (W5 m ρ)) c 1).trans (W6_of_ne m ρ c main_v7 (by decide)).symm)
  | ⟨2, _⟩ => ((dat2 (atTc (W5 m ρ)) c).arrAt_in 2 rfl _).trans ((A_eq2 (atTc (W5 m ρ)) c 2).trans (W6_of_ne m ρ c main_v14 (by decide)).symm)
  | ⟨3, _⟩ => (W6_out m ρ c).symm
theorem hrest2 (c : Dev nD) : ∀ b, b ∉ Finset.univ.image (Pipeline.arrRef spec2) → atTc (W6 m ρ) c b = atTc (W5 m ρ) c b :=
  fun b hb => W6_of_ne m ρ c b fun e => hb (Finset.mem_image.mpr ⟨3, Finset.mem_univ _, e.symm⟩)

set_option backward.isDefEq.respectTransparency.types false in
/-- The first region: entered from the contents after the first host stretch, left with its output array written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (atTc (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (atTc (W1 m ρ) c) (atTc (W2 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered from the contents after the third host stretch, left with its output array written. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W5 m ρ)) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (atTc (W5 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (atTc (W5 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (atTc (W5 m ρ) c) (atTc (W6 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunRegion1.lean ====
/-
  The second kernel region as a segment of the run. Its three input windows read ONE array: at entry the buffer behind it,
  held whole, is split into three shares, one per window; the windows never write it, so at exit the three shares still
  hold the entry contents and are joined again. The output window's array is put back at what the write-backs leave.
-/
import proofs.«162190_j88794153877525_2_alg».proof.Proof.RunRegions02
import proofs.«162190_j88794153877525_2_alg».proof.Proof.Gen.KernelIdeal.Launch
import proofs.«162190_j88794153877525_2_alg».proof.Proof.Gen.KernelIdeal.Skeleton
import proofs.«162190_j88794153877525_2_alg».proof.Proof.Gen.KernelIdeal.Points
import proofs.«162190_j88794153877525_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the second region's arrays: the shared input array and the output array. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v11) ↦{fullShare} V main_v11) ∗ (((c : Thread nD τ).loc main_v12) ↦{fullShare} V main_v12)) := by
  unfold Pipeline.arrBufs
  exact bigSep_eq_bigSepL_of_eq [main_v11, main_v12] (by decide) (by decide) _

/-- The second region's arrays, window by window, each at its share. -/
theorem arrays1_eq (V : (c : Dev nD) → (b : Ref sig .tc) → Buf (Elt F) ((c : Thread nD τ).loc b)) (c : Dev nD)
    (Fs : (w : Fin cfg1.W) → Buf (Elt F) ((cfg1.win w).arr.view.loc (c : Thread nD τ))) :
    ((dat1 V q1 c).arrays Fs : sProp 𝕄)
      = iprop((((c : Thread nD τ).loc main_v11) ↦{fullShare.left} Fs 0) ∗ (((c : Thread nD τ).loc main_v11) ↦{fullShare.right.left} Fs 1)
          ∗ (((c : Thread nD τ).loc main_v11) ↦{fullShare.right.right} Fs 2) ∗ (((c : Thread nD τ).loc main_v12) ↦{fullShare} Fs 3)) := by
  have h0 : ((cfg1.win 0).arr).IsWhole := arr_whole1 0
  have h3 : ((cfg1.win 3).arr).IsWhole := arr_whole1 3
  unfold Pipeline.Dat.arrays
  rw [bigSep_W1, h0.set_eq_univ, h3.set_eq_univ,
    show (dat1 V q1 c).share 0 = fullShare.left from rfl, show (dat1 V q1 c).share 1 = fullShare.right.left from rfl,
    show (dat1 V q1 c).share 2 = fullShare.right.right from rfl, show (dat1 V q1 c).share 3 = fullShare from rfl]

/-- An input window's array is never written: after any number of write-backs it holds the entry contents. -/
theorem arrAt1_in (V : (c : Dev nD) → (b : Ref sig .tc) → Buf (Elt F) ((c : Thread nD τ).loc b)) (c : Dev nD) (n : ℕ) :
    (dat1 V q1 c).arrAt 0 n = V c main_v11 ∧ (dat1 V q1 c).arrAt 1 n = V c main_v11 ∧ (dat1 V q1 c).arrAt 2 n = V c main_v11 :=
  ⟨((dat1 V q1 c).arrAt_in 0 rfl n).trans (A_eq1 V q1 c 0), ((dat1 V q1 c).arrAt_in 1 rfl n).trans (A_eq1 V q1 c 1),
    ((dat1 V q1 c).arrAt_in 2 rfl n).trans (A_eq1 V q1 c 2)⟩

/-- Before any write-back the output array holds its entry contents. -/
theorem arrAt1_out0 (V : (c : Dev nD) → (b : Ref sig .tc) → Buf (Elt F) ((c : Thread nD τ).loc b)) (c : Dev nD) :
    (dat1 V q1 c).arrAt 3 0 = V c main_v12 := rfl

/-- ENTRY: a core's unscoped buffers at the contents before the region are the region's arrays at their entry contents,
    the shared one in three shares, and the unscoped rest. -/
theorem entry1 (c : Dev nD) :
    (unscopedBufs (Ix := Unit) (Name := ℕ) (U := UR sig nD τ) (Lvl := ℕ) c (atTc (W3 m ρ) c) : sProp 𝕄)
      ⊢ iprop((dat1 (atTc (W3 m ρ)) q1 c).arrays (fun w => (dat1 (atTc (W3 m ρ)) q1 c).arrAt w 0)
          ∗ Pipeline.unscopedRest spec1 c (atTc (W3 m ρ) c)) := by
  rw [Pipeline.unscopedBufs_split₀ cfgs 1 (by decide) c (atTc (W3 m ρ) c)]
  refine sep_mono ?_ .rfl
  show (Pipeline.arrBufs spec1 c (atTc (W3 m ρ) c) : sProp 𝕄) ⊢ _
  rw [arrBufs1_eq, arrays1_eq]
  rw [(arrAt1_in (atTc (W3 m ρ)) c 0).1, (arrAt1_in (atTc (W3 m ρ)) c 0).2.1, (arrAt1_in (atTc (W3 m ρ)) c 0).2.2, arrAt1_out0]
  iintro ⟨H11, H12⟩
  ihave H := (pointsTo_share (PosShare.mem_left_op_right fullShare)).1 $$ H11
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  iexact H12

/-- EXIT: the region's arrays after every write-back and the unscoped rest are the core's unscoped buffers at the contents
    after the region. -/
theorem exit1 (c : Dev nD) :
    iprop((dat1 (atTc (W3 m ρ)) q1 c).arrays (fun w => (dat1 (atTc (W3 m ρ)) q1 c).arrAt w cfg1.N)
        ∗ Pipeline.unscopedRest (Ix := Unit) (Name := ℕ) (U := UR sig nD τ) (Lvl := ℕ) spec1 c (atTc (W3 m ρ) c))
      ⊢ (unscopedBufs c (atTc (W4 m ρ) c) : sProp 𝕄) := by
  rw [Pipeline.unscopedBufs_split₀ cfgs 1 (by decide) c (atTc (W4 m ρ) c)]
  refine sep_mono ?_ (Entails.of_eq ?_)
  · show _ ⊢ (Pipeline.arrBufs spec1 c (atTc (W4 m ρ) c) : sProp 𝕄)
    rw [arrBufs1_eq, arrays1_eq]
    rw [(arrAt1_in (atTc (W3 m ρ)) c cfg1.N).1, (arrAt1_in (atTc (W3 m ρ)) c cfg1.N).2.1, (arrAt1_in (atTc (W3 m ρ)) c cfg1.N).2.2,
      show atTc (W4 m ρ) c main_v11 = atTc (W3 m ρ) c main_v11 from W4_of_ne m ρ c main_v11 (by decide),
      show atTc (W4 m ρ) c main_v12 = (dat1 (atTc (W3 m ρ)) q1 c).arrAt 3 cfg1.N from W4_out m ρ c]
    iintro ⟨Ha, Hb1, Hb2, H12⟩
    isplitl [Ha Hb1 Hb2]
    · iapply (pointsTo_share (PosShare.mem_left_op_right fullShare)).2
      isplitl [Ha]; · iexact Ha
      iapply (pointsTo_share (PosShare.mem_left_op_right fullShare.right)).2
      isplitl [Hb1]; · iexact Hb1
      iexact Hb2
    iexact H12
  · unfold Pipeline.unscopedRest
    exact bigSep_congr fun b hb => by
      rw [show atTc (W4 m ρ) c b = atTc (W3 m ρ) c b from
        W4_of_ne m ρ c b fun e => (Finset.mem_sdiff.mp hb).2 (Finset.mem_image.mpr ⟨3, Finset.mem_univ _, e.symm⟩)]

set_option backward.isDefEq.respectTransparency.types false in
/-- The second region: entered from the contents after the second host stretch, left with its output array written. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (atTc (W3 m ρ)) q1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m ρ) c)
  hentry c := by
    rw [Pipeline.ownSems0_none]
    have hsplit : (unscopedBufs (Ix := Unit) (Name := ℕ) (U := UR sig nD τ) (Lvl := ℕ) c (atTc (W3 m ρ) c) : sProp 𝕄)
        ⊢ iprop((pdats m ρ 1 c).arrays (fun x => (pdats m ρ 1 c).arrAt x 0)
          ∗ Pipeline.unscopedRest spec1 c (atTc (W3 m ρ) c)) := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays (fun x => (pdats m ρ 1 c).arrAt x (Pipeline.pin (pcfgs (F := F)) adm 1).N)
        ∗ Pipeline.unscopedRest (Ix := Unit) (Name := ℕ) (U := UR sig nD τ) (Lvl := ℕ) spec1 c (atTc (W3 m ρ) c))
        ⊢ (unscopedBufs c (atTc (W4 m ρ) c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunMain.lean ====
/-
  The run of the whole program: the launch over its seven segments. Every weakly fair execution terminates, nothing
  faulting, with every unscoped buffer at the last contents of the chain. No host operation and no region writes an
  argument array, so each argument is read back through the chain to its launch contents.
-/
import proofs.«162190_j88794153877525_2_alg».proof.Proof.RunRegion1
import proofs.«162190_j88794153877525_2_alg».proof.Proof.Gen.KernelIdeal.Launch
import proofs.«162190_j88794153877525_2_alg».proof.Proof.Gen.KernelIdeal.Skeleton
import proofs.«162190_j88794153877525_2_alg».proof.Proof.Gen.KernelIdeal.Points
import proofs.«162190_j88794153877525_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at the chain's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## What no segment writes -/

/-- A buffer that no host stretch writes and that is no region's output array ends as launched. -/
theorem W7_kept (c : Dev nD) (r : Ref sig .tc) (h0 : r ∉ hostOps0_W) (h1 : r ∉ hostOps1_W) (h2 : r ∉ hostOps2_W) (h3 : r ∉ hostOps3_W)
    (n10 : r ≠ main_v10) (n12 : r ≠ main_v12) (n15 : r ≠ main_v15) :
    W7 m ρ c (Proc.devRef .tc r) = m ((c : Thread nD τ).loc r) :=
  (StableHlo.after_of_writes_sub hostOps3 _ hostOps3_writes h3).trans <| (W6_of_ne m ρ c r n15).trans <|
    (StableHlo.after_of_writes_sub hostOps2 _ hostOps2_writes h2).trans <| (W4_of_ne m ρ c r n12).trans <|
    (StableHlo.after_of_writes_sub hostOps1 _ hostOps1_writes h1).trans <| (W2_of_ne m ρ c r n10).trans <|
    (StableHlo.after_of_writes_sub hostOps0 _ hostOps0_writes h0).trans rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_kept m ρ c main_arg0 (by decide) (by decide) (by decide) (by decide) (by decide) (by decide) (by decide)),
     (h c _ (mem_uc main_arg1 (by decide))).trans (W7_kept m ρ c main_arg1 (by decide) (by decide) (by decide) (by decide) (by decide) (by decide) (by decide)),
     (h c _ (mem_uc main_arg2 (by decide))).trans (W7_kept m ρ c main_arg2 (by decide) (by decide) (by decide) (by decide) (by decide) (by decide) (by decide)),
     (h c _ (mem_uc main_arg3 (by decide))).trans (W7_kept m ρ c main_arg3 (by decide) (by decide) (by decide) (by decide) (by decide) (by decide) (by decide)),
     (h c _ (mem_uc main_arg4 (by decide))).trans (W7_kept m ρ c main_arg4 (by decide) (by decide) (by decide) (by decide) (by decide) (by decide) (by decide)),
     (h c _ (mem_uc main_arg5 (by decide))).trans (W7_kept m ρ c main_arg5 (by decide) (by decide) (by decide) (by decide) (by decide) (by decide) (by decide))⟩)
    (run_main m ρ)

end Cert.KernelIdeal.Hand

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibConcatThree.lean ====
/-
  Three pieces of one shape laid side by side, read at an index.

  Three `[n, a]` matrices joined along their columns make an `[n, c]` matrix whose column `g·a + q` (with `q < a`) is
  column `q` of piece `g`; three `[a]` vectors joined end to end make a `[c]` vector whose entry `g·a + q` is entry `q`
  of piece `g`. (Here `c` is whatever extent the concatenation was formed with: three times `a`.)
-/
import Idealize.ShloMosaic.Lib.Pipeline.Value
import Idealize.ShloMosaic.Lib.ValueIdx

noncomputable section

namespace Idealize.ShloMosaic.ConcatThree

open Idealize.ShloMosaic Idealize.ShloMosaic.ValueIdx

variable {α : Type}

/-- Three `[n, a]` matrices joined along the columns, read at row `r` and column `j = g·a + q`: piece `g` at `(r, q)`. -/
theorem cols_apply {n a c : ℕ} (x0 x1 x2 : (⟨2, ![n, a]⟩ : Shape).Idx → α)
    (h : Shape.Concatenates (([⟨⟨2, ![n, a]⟩, x0⟩, ⟨⟨2, ![n, a]⟩, x1⟩, ⟨⟨2, ![n, a]⟩, x2⟩] :
      List ((s : Shape) × (s.Idx → α))).map (·.1)) ⟨2, ![n, c]⟩ 1)
    (r : Fin n) (g : Fin 3) (q : Fin a) (j : Fin c) (hj : j.val = g.val * a + q.val) :
    concatenate ⟨2, ![n, c]⟩ 1 [⟨⟨2, ![n, a]⟩, x0⟩, ⟨⟨2, ![n, a]⟩, x1⟩, ⟨⟨2, ![n, a]⟩, x2⟩] h (ix2 r j)
      = (![x0, x1, x2] g) (ix2 r q) := by
  have hoff : ∀ b : Fin (⟨2, ![n, a]⟩ : Shape).rank, b.cast rfl ≠ (1 : Fin 2) →
      ((ix2 r q : (⟨2, ![n, a]⟩ : Shape).Idx) b).val = ((ix2 r j : (⟨2, ![n, c]⟩ : Shape).Idx) (b.cast rfl)).val := by
    intro b hb
    match b with
    | ⟨0, _⟩ => rfl
    | ⟨1, _⟩ => exact absurd rfl hb
  match g with
  | ⟨0, _⟩ =>
    exact concatenate_apply_piece 1 _ h (ix2 r j) 0 (by show 0 < 3; omega) ⟨2, ![n, a]⟩ x0 rfl rfl 0 rfl (ix2 r q) hoff
      (by show 0 + q.val = j.val; rw [hj]; simp)
  | ⟨1, _⟩ =>
    exact concatenate_apply_piece 1 _ h (ix2 r j) 1 (by show 1 < 3; omega) ⟨2, ![n, a]⟩ x1 rfl rfl (a + 0) rfl (ix2 r q) hoff
      (by show a + 0 + q.val = j.val; rw [hj]; simp)
  | ⟨2, _⟩ =>
    exact concatenate_apply_piece 1 _ h (ix2 r j) 2 (by show 2 < 3; omega) ⟨2, ![n, a]⟩ x2 rfl rfl (a + (a + 0)) rfl (ix2 r q) hoff
      (by show a + (a + 0) + q.val = j.val; rw [hj]; simp; omega)

/-- Three `[a]` vectors joined end to end, read at `j = g·a + q`: piece `g` at `q`. -/
theorem vec_apply {a c : ℕ} (x0 x1 x2 : (⟨1, ![a]⟩ : Shape).Idx → α)
    (h : Shape.Concatenates (([⟨⟨1, ![a]⟩, x0⟩, ⟨⟨1, ![a]⟩, x1⟩, ⟨⟨1, ![a]⟩, x2⟩] :
      List ((s : Shape) × (s.Idx → α))).map (·.1)) ⟨1, ![c]⟩ 0)
    (g : Fin 3) (q : Fin a) (j : Fin c) (hj : j.val = g.val * a + q.val) :
    concatenate ⟨1, ![c]⟩ 0 [⟨⟨1, ![a]⟩, x0⟩, ⟨⟨1, ![a]⟩, x1⟩, ⟨⟨1, ![a]⟩, x2⟩] h (ix1 j)
      = (![x0, x1, x2] g) (ix1 q) := by
  have hoff : ∀ b : Fin (⟨1, ![a]⟩ : Shape).rank, b.cast rfl ≠ (0 : Fin 1) →
      ((ix1 q : (⟨1, ![a]⟩ : Shape).Idx) b).val = ((ix1 j : (⟨1, ![c]⟩ : Shape).Idx) (b.cast rfl)).val := by
    intro b hb
    match b with
    | ⟨0, _⟩ => exact absurd rfl hb
  match g with
  | ⟨0, _⟩ =>
    exact concatenate_apply_piece 0 _ h (ix1 j) 0 (by show 0 < 3; omega) ⟨1, ![a]⟩ x0 rfl rfl 0 rfl (ix1 q) hoff
      (by show 0 + q.val = j.val; rw [hj]; simp)
  | ⟨1, _⟩ =>
    exact concatenate_apply_piece 0 _ h (ix1 j) 1 (by show 1 < 3; omega) ⟨1, ![a]⟩ x1 rfl rfl (a + 0) rfl (ix1 q) hoff
      (by show a + 0 + q.val = j.val; rw [hj]; simp)
  | ⟨2, _⟩ =>
    exact concatenate_apply_piece 0 _ h (ix1 j) 2 (by show 2 < 3; omega) ⟨1, ![a]⟩ x2 rfl rfl (a + (a + 0)) rfl (ix1 q) hoff
      (by show a + (a + 0) + q.val = j.val; rw [hj]; simp; omega)

end Idealize.ShloMosaic.ConcatThree

end
-- ==== Proof.HostGlue.lean ====
/-
  The host operations between the kernel regions, read at an index, at the exact instance.

  Before the first region: the input's two leading axes are merged (row 2048·b + s of the matrix is row (b, s)); the
  three projection matrices are transposed and laid side by side (column 1024·g + o of the joined matrix is row o of
  matrix g); the bias of the fused projection is zero. Between regions: the same merge of leading axes and its inverse.
  Before the last region: the last matrix transposed, its bias as a row. After it: the rows split back into (b, s).
  A change of float format is the identity on the extended reals.
-/
import proofs.«162190_j88794153877525_2_alg».proof.Proof.RunChain
import proofs.«162190_j88794153877525_2_alg».proof.Proof.Gen.KernelIdeal.Launch
import proofs.«162190_j88794153877525_2_alg».proof.Proof.Gen.KernelIdeal.Regions
import proofs.«162190_j88794153877525_2_alg».proof.Proof.LibRowPairs
import proofs.«162190_j88794153877525_2_alg».proof.Proof.LibConcatThree
import Idealize.ShloMosaic.Lib.ValueLayout
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ) (ρ : Dev nD → PrngReg) (c : Dev nD)

/-! ## Before the first region -/

/-- The input with its two leading axes merged. -/
theorem merged_input (b : Fin 4) (s : Fin 2048) (d : Fin 1024) (r : Fin 8192) (hr : r.val = b.val * 2048 + s.val) :
    atTc (W1 m ρ) c main_v0 (ix2 r d) = m ((c.tc : Thread nD τ).loc main_arg0) (ix3 b s d) := by
  have e : (W1 m ρ c (Proc.devRef .tc main_v0) : S8192x1024.Idx → EReal)
      = shapeCast S8192x1024 (m ((c.tc : Thread nD τ).loc main_arg0)) shapeCasts_S4x2048x1024_S8192x1024 := by
    show StableHlo.after hostOps0 _ (Proc.devRef .tc main_v0) = _
    after_results <;> rfl
  show (W1 m ρ c (Proc.devRef .tc main_v0) : S8192x1024.Idx → EReal) (ix2 r d) = _
  rw [e]
  exact RowPairs.shapeCast_abc_nc_apply _ _ b s d r hr

/-- Picking one of three transposed matrices and reading it at (d, o) reads the matrix picked at (o, d). -/
theorem transposed_pick (x0 x1 x2 : (⟨2, ![1024, 1024]⟩ : Shape).Idx → EReal)
    (h : (⟨2, ![1024, 1024]⟩ : Shape).Transposes [1, 0] ⟨2, ![1024, 1024]⟩) (g : Fin 3) (d o : Fin 1024) :
    (![transpose ⟨2, ![1024, 1024]⟩ [1, 0] x0 h, transpose ⟨2, ![1024, 1024]⟩ [1, 0] x1 h, transpose ⟨2, ![1024, 1024]⟩ [1, 0] x2 h] g) (ix2 d o)
      = (![x0, x1, x2] g) (ix2 o d) :=
  match g with
  | ⟨0, _⟩ => transpose_ix2_apply x0 h d o
  | ⟨1, _⟩ => transpose_ix2_apply x1 h d o
  | ⟨2, _⟩ => transpose_ix2_apply x2 h d o

/-- The three projection matrices, transposed and joined along the columns: column 1024·g + o is row o of matrix g. -/
theorem joined_weights (d : Fin 1024) (g : Fin 3) (o : Fin 1024) (n : Fin 3072) (hn : n.val = g.val * 1024 + o.val) :
    atTc (W1 m ρ) c main_v5 (ix2 d n)
      = (![m ((c.tc : Thread nD τ).loc main_arg1), m ((c.tc : Thread nD τ).loc main_arg2), m ((c.tc : Thread nD τ).loc main_arg3)] g) (ix2 o d) := by
  have e : (W1 m ρ c (Proc.devRef .tc main_v5) : FVec Ideal S1024x3072 .bf16)
      = truncf (F := Ideal) .bf16 (concatenate S1024x3072 1
          [⟨S1024x1024, transpose S1024x1024 [1, 0] (m ((c.tc : Thread nD τ).loc main_arg1) : FVec Ideal S1024x1024 .f32) transposes_S1024x1024_S1024x1024_1_0⟩,
           ⟨S1024x1024, transpose S1024x1024 [1, 0] (m ((c.tc : Thread nD τ).loc main_arg2) : FVec Ideal S1024x1024 .f32) transposes_S1024x1024_S1024x1024_1_0⟩,
           ⟨S1024x1024, transpose S1024x1024 [1, 0] (m ((c.tc : Thread nD τ).loc main_arg3) : FVec Ideal S1024x1024 .f32) transposes_S1024x1024_S1024x1024_1_0⟩]
          concatenates_S1024x1024_S1024x1024_S1024x1024_S1024x3072_d1) bitsLt_bf16_f32 := by
    show StableHlo.after hostOps0 _ (Proc.devRef .tc main_v5) = _
    after_results <;> rfl
  show (W1 m ρ c (Proc.devRef .tc main_v5) : FVec Ideal S1024x3072 .bf16) (ix2 d n) = _
  rw [e]
  refine (ConcatThree.cols_apply
    (transpose S1024x1024 [1, 0] (m ((c.tc : Thread nD τ).loc main_arg1) : FVec Ideal S1024x1024 .f32) transposes_S1024x1024_S1024x1024_1_0)
    (transpose S1024x1024 [1, 0] (m ((c.tc : Thread nD τ).loc main_arg2) : FVec Ideal S1024x1024 .f32) transposes_S1024x1024_S1024x1024_1_0)
    (transpose S1024x1024 [1, 0] (m ((c.tc : Thread nD τ).loc main_arg3) : FVec Ideal S1024x1024 .f32) transposes_S1024x1024_S1024x1024_1_0)
    concatenates_S1024x1024_S1024x1024_S1024x1024_S1024x3072_d1 d g o n hn).trans ?_
  exact transposed_pick _ _ _ _ g d o

/-- The fused projection's bias is zero. -/
theorem zero_bias (n : Fin 3072) : (atTc (W1 m ρ) c main_v9 (ix2 0 n) : EReal) = (0 : EReal) := by
  have e : (W1 m ρ c (Proc.devRef .tc main_v9) : S1x3072.Idx → EReal)
      = shapeCast S1x3072 (broadcastInDim S3072 ![] bcast_S_S3072 (constant (F := Ideal) S_ .f32 0x00000000#32)) shapeCasts_S3072_S1x3072 := by
    show StableHlo.after hostOps0 _ (Proc.devRef .tc main_v9) = _
    after_results <;> rfl
  show (W1 m ρ c (Proc.devRef .tc main_v9) : S1x3072.Idx → EReal) (ix2 0 n) = _
  rw [e]
  exact Ideal.ofBits_zero_f32

/-- The last matrix transposed. -/
theorem last_weights_entry (d f : Fin 1024) :
    atTc (W1 m ρ) c main_v7 (ix2 d f) = m ((c.tc : Thread nD τ).loc main_arg4) (ix2 f d) := by
  have e : (W1 m ρ c (Proc.devRef .tc main_v7) : FVec Ideal S1024x1024 .bf16)
      = truncf (F := Ideal) .bf16 (transpose S1024x1024 [1, 0] (m ((c.tc : Thread nD τ).loc main_arg4) : FVec Ideal S1024x1024 .f32) transposes_S1024x1024_S1024x1024_1_0) bitsLt_bf16_f32 := by
    show StableHlo.after hostOps0 _ (Proc.devRef .tc main_v7) = _
    after_results <;> rfl
  show (W1 m ρ c (Proc.devRef .tc main_v7) : FVec Ideal S1024x1024 .bf16) (ix2 d f) = _
  rw [e]
  exact transpose_ix2_apply _ _ d f

/-! ## Between the regions -/

/-- The fused projections with their rows split back into (b, s). -/
theorem split_projections (b : Fin 4) (s : Fin 2048) (n : Fin 3072) (r : Fin 8192) (hr : r.val = b.val * 2048 + s.val) :
    atTc (W3 m ρ) c main_v11 (ix3 b s n) = atTc (W2 m ρ) c main_v10 (ix2 r n) := by
  have e : (W3 m ρ c (Proc.devRef .tc main_v11) : S4x2048x3072.Idx → EReal)
      = shapeCast S4x2048x3072 (W2 m ρ c (Proc.devRef .tc main_v10)) shapeCasts_S8192x3072_S4x2048x3072 := by
    show StableHlo.after hostOps1 _ (Proc.devRef .tc main_v11) = _
    after_results <;> rfl
  show (W3 m ρ c (Proc.devRef .tc main_v11) : S4x2048x3072.Idx → EReal) (ix3 b s n) = _
  rw [e]
  exact RowPairs.shapeCast_nc_abc_apply _ _ b s n r hr

/-- The attention output with its two leading axes merged. -/
theorem merged_heads (b : Fin 4) (s : Fin 2048) (d : Fin 1024) (r : Fin 8192) (hr : r.val = b.val * 2048 + s.val) :
    atTc (W5 m ρ) c main_v13 (ix2 r d) = atTc (W4 m ρ) c main_v12 (ix3 b s d) := by
  have e : (W5 m ρ c (Proc.devRef .tc main_v13) : S8192x1024.Idx → EReal)
      = shapeCast S8192x1024 (W4 m ρ c (Proc.devRef .tc main_v12)) shapeCasts_S4x2048x1024_S8192x1024 := by
    show StableHlo.after hostOps2 _ (Proc.devRef .tc main_v13) = _
    after_results <;> rfl
  show (W5 m ρ c (Proc.devRef .tc main_v13) : S8192x1024.Idx → EReal) (ix2 r d) = _
  rw [e]
  exact RowPairs.shapeCast_abc_nc_apply _ _ b s d r hr

/-- The bias as a row. -/
theorem bias_row (f : Fin 1024) :
    atTc (W5 m ρ) c main_v14 (ix2 0 f) = m ((c.tc : Thread nD τ).loc main_arg5) (ix1 f) := by
  have e : (W5 m ρ c (Proc.devRef .tc main_v14) : S1x1024.Idx → EReal)
      = shapeCast S1x1024 (W4 m ρ c (Proc.devRef .tc main_arg5)) shapeCasts_S1024_S1x1024 := by
    show StableHlo.after hostOps2 _ (Proc.devRef .tc main_v14) = _
    after_results <;> rfl
  have k : W4 m ρ c (Proc.devRef .tc main_arg5) = m ((c.tc : Thread nD τ).loc main_arg5) :=
    (W4_of_ne m ρ c main_arg5 (by decide)).trans <| (StableHlo.after_of_writes_sub hostOps1 _ hostOps1_writes (by decide)).trans <|
      (W2_of_ne m ρ c main_arg5 (by decide)).trans <| (StableHlo.after_of_writes_sub hostOps0 _ hostOps0_writes (by decide)).trans rfl
  show (W5 m ρ c (Proc.devRef .tc main_v14) : S1x1024.Idx → EReal) (ix2 0 f) = _
  rw [e, k, shapeCast_addUnit_apply]
  exact congrArg _ (funext fun a => match a with | ⟨0, _⟩ => rfl)

/-- The last matrix, transposed, reaches the last region unchanged. -/
theorem last_weights_kept (d f : Fin 1024) :
    atTc (W5 m ρ) c main_v7 (ix2 d f) = m ((c.tc : Thread nD τ).loc main_arg4) (ix2 f d) := by
  have k : W5 m ρ c (Proc.devRef .tc main_v7) = W1 m ρ c (Proc.devRef .tc main_v7) :=
    (StableHlo.after_of_writes_sub hostOps2 _ hostOps2_writes (by decide)).trans <| (W4_of_ne m ρ c main_v7 (by decide)).trans <|
      (StableHlo.after_of_writes_sub hostOps1 _ hostOps1_writes (by decide)).trans (W2_of_ne m ρ c main_v7 (by decide))
  show (W5 m ρ c (Proc.devRef .tc main_v7) : S1024x1024.Idx → EReal) (ix2 d f) = _
  rw [k]
  exact last_weights_entry m ρ c d f

/-! ## After the last region -/

/-- The result with its rows split back into (b, s). -/
theorem split_result (b : Fin 4) (s : Fin 2048) (o : Fin 1024) (r : Fin 8192) (hr : r.val = b.val * 2048 + s.val) :
    W7 m ρ c (Proc.devRef .tc main_v16) (ix3 b s o) = atTc (W6 m ρ) c main_v15 (ix2 r o) := by
  have e : (W7 m ρ c (Proc.devRef .tc main_v16) : S4x2048x1024.Idx → EReal)
      = shapeCast S4x2048x1024 (W6 m ρ c (Proc.devRef .tc main_v15)) shapeCasts_S8192x1024_S4x2048x1024 := by
    show StableHlo.after hostOps3 _ (Proc.devRef .tc main_v16) = _
    after_results <;> rfl
  show (W7 m ρ c (Proc.devRef .tc main_v16) : S4x2048x1024.Idx → EReal) (ix3 b s o) = _
  rw [e]
  exact RowPairs.shapeCast_nc_abc_apply _ _ b s o r hr

end Cert.KernelIdeal.Hand

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Pay0.lean ====
/-
  The fused projection's block, read at an entry.

  The first call multiplies a block of 1024 input rows by the fused weight matrix [1024, 3072] into a zero accumulator
  and adds the bias row to every row. On the extended reals a change of float format is the identity, so entry (p, f)
  of what is stored is the inner product of row p of the block with column f of the weights, plus the bias at f.
-/
import Idealize.ShloMosaic.Lib.ValueLayout
import proofs.«162190_j88794153877525_2_alg».proof.Proof.Gen.KernelIdeal.Skeleton
import proofs.«162190_j88794153877525_2_alg».proof.Proof.LibInnerProducts

noncomputable section

namespace Cert.KernelIdeal.Pay

open Idealize.ShloMosaic Idealize.ShloMosaic.ValueIdx
open Cert.KernelIdeal Cert.KernelIdeal.Gen
open scoped BigOperators

/-- A matrix product into the zero accumulator plus one row spread over every row, at (p, f). -/
theorem product_plus_row {M K N : ℕ} {φ₁ φ₂ : FTy} (D : DotDims ⟨2, ![M, K]⟩ ⟨2, ![K, N]⟩ ⟨2, ![M, N]⟩)
    (hD : D = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (f : Fin N) :
    addf (matmul D none a w (constant (F := Ideal) ⟨2, ![M, N]⟩ .f32 0x00000000#32)) (broadcastTo ⟨2, ![M, N]⟩ b hb) (ix2 p f)
      = (∑ d : Fin K, a (ix2 p d) * w (ix2 d f)) + b (ix2 0 f) := by
  show matmul D none a w (constant (F := Ideal) ⟨2, ![M, N]⟩ .f32 0x00000000#32) (ix2 p f) + broadcastTo ⟨2, ![M, N]⟩ b hb (ix2 p f) = _
  rw [InnerProducts.matmul_zero_apply D hD none a w p f, broadcastTo_1b_ab_apply b hb p f]

/-- Entry (p, f) of the first call's stored block: row p of the input block against column f of the fused weights,
    plus the bias at f. -/
theorem pay0_apply (x : Vec Ideal S1024x1024 .f32) (w : Vec Ideal S1024x3072 .bf16) (b : Vec Ideal S1x3072 .f32)
    (p : Fin 1024) (f : Fin 3072) :
    k0_pay1 x w b (ix2 p f) = (∑ d : Fin 1024, x (ix2 p d) * w (ix2 d f)) + b (ix2 0 f) := by
  unfold k0_pay1
  refine (product_plus_row dot_S1024x1024_S1024x3072_S1024x3072_1_0_0_1_n_n rfl
    (truncf .bf16 (shapeCast S1024x1024 x shapeCasts_S1024x1024_S1024x1024) bitsLt_bf16_f32)
    (shapeCast S1024x3072 w shapeCasts_S1024x3072_S1024x3072)
    (shapeCast S1x3072 b shapeCasts_S1x3072_S1x3072) broadcasts_S1x3072_S1024x3072 p f).trans ?_
  rw [shapeCast_self w, shapeCast_self b]
  refine congrArg (· + b (ix2 0 f)) (Finset.sum_congr rfl fun d _ => ?_)
  rw [truncf_apply, shapeCast_self x]

end Cert.KernelIdeal.Pay

end
-- ==== Proof.Final0Point.lean ====
/-
  What one grid point of the first call writes back.

  The call runs over 8 grid points. Point t fetches rows 1024·t … 1024·t + 1023 of the input, the whole fused weight
  matrix and the whole bias row, and writes back the product of the input block with the weights plus the bias row.
  That block is rows 1024·t … 1024·t + 1023 of ONE function of the three arrays: at (r, n) the inner product of row r
  of the input with column n of the weights, plus the bias at n.
-/
import proofs.«162190_j88794153877525_2_alg».proof.Proof.Body0
import proofs.«162190_j88794153877525_2_alg».proof.Proof.Pay0
import Idealize.ShloMosaic.Lib.Pipeline.Value

noncomputable section

namespace Cert.KernelIdeal.Hand

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)
open scoped BigOperators

-- the buffer contents when the region is entered
variable (V : (c : Dev nD) → (b : Ref sig .tc) → Buf (Elt Ideal) ((c : Thread nD τ).loc b))

/-! ## The array as one function of the three input arrays -/

/-- Entry (r, n): row r of the input against column n of the fused weights, plus the bias at n. -/
def G0 (A : Vec Ideal S8192x1024 .f32) (W : Vec Ideal S1024x3072 .bf16) (B : Vec Ideal S1x3072 .f32) :
    Vec Ideal S8192x3072 .bf16 :=
  fun i => (∑ d : Fin 1024, A (ix2 (n0 := 8192) ⟨(i 0).val, (i 0).isLt⟩ d) * W (ix2 (n1 := 3072) d ⟨(i 1).val, (i 1).isLt⟩))
    + B (ix2 (n0 := 1) (n1 := 3072) 0 ⟨(i 1).val, (i 1).isLt⟩)

theorem G0_apply (A : Vec Ideal S8192x1024 .f32) (W : Vec Ideal S1024x3072 .bf16) (B : Vec Ideal S1x3072 .f32)
    (r : Fin 8192) (n : Fin 3072) :
    G0 A W B (ix2 r n) = (∑ d : Fin 1024, A (ix2 r d) * W (ix2 d n)) + B (ix2 0 n) := rfl

/-! ## One point's block -/

theorem lt8 (t : Fin cfg0.N) : t.val < 8 := lt_of_lt_of_eq t.isLt N_0

/-- Row p of point t's block is row 1024·t + p of the array. -/
def row0 (t : Fin cfg0.N) (p : Fin 1024) : Fin 8192 := ⟨t.val * 1024 + p.val, by have := lt8 t; omega⟩

/-- The block a point computes, entry by entry, when its three input blocks are the input's rows from 1024·t on, the
    whole weights and the whole bias. -/
theorem block_entry (A : Vec Ideal S8192x1024 .f32) (W : Vec Ideal S1024x3072 .bf16) (B : Vec Ideal S1x3072 .f32)
    (x0 : Vec Ideal S1024x1024 .f32) (x1 : Vec Ideal S1024x3072 .bf16) (x2 : Vec Ideal S1x3072 .f32) (t : Fin cfg0.N)
    (h0 : ∀ p d : Fin 1024, x0 (ix2 p d) = A (ix2 (row0 t p) d))
    (h1 : ∀ (d : Fin 1024) (f : Fin 3072), x1 (ix2 d f) = W (ix2 d f))
    (h2 : ∀ f : Fin 3072, x2 (ix2 0 f) = B (ix2 0 f)) (p : Fin 1024) (f : Fin 3072) :
    k0_pay1 x0 x1 x2 (ix2 p f) = G0 A W B (ix2 (row0 t p) f) := by
  rw [pay0_apply, G0_apply, h2 f]
  exact congrArg (· + B (ix2 0 f)) (Finset.sum_congr rfl fun d _ => by rw [h0 p d, h1 d f])

theorem hz0 : (![0, 0] : Fin 2 → Nat) = fun _ => 0 := funext fun a => by fin_cases a <;> rfl

/-- The printed index maps over the grid: the input's and the output's blocks move down one block row per point, the
    weights and the bias stay whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the array's function of the entry contents. -/
theorem flushed0_eq (c : Dev nD) (t : Fin cfg0.N) :
    (dat0 (F := Ideal) V c).flushed 3 t
      = ((cfg0.win 3).blk t).view.read (Elt Ideal) (G0 (V c main_v0) (V c main_v5) (V c main_v9)) := by
  show (cfg0.win 3).cut (grid0.coords t) ((dat0 V c).after 3 t) = _
  rw [after0_3]
  unfold out0_3
  rw [View.canon_unit_zero hz0]
  simp only [View.ld_unit_zero (S := S1024x1024) hz0, View.ld_unit_zero (S := S1024x3072) hz0, View.ld_unit_zero (S := S1x3072) hz0]
  obtain ⟨e00, e01, e10, e11, e20, e21, e30, e31⟩ := idx_facts0 t
  funext j
  obtain ⟨p, f, rfl⟩ : ∃ (p : Fin 1024) (f : Fin 3072), j = ix2 p f := ⟨j 0, j 1, eq_ix2 j⟩
  show k0_pay1 (iblk0 V c 0 t) (iblk0 V c 1 t) (iblk0 V c 2 t) (ix2 p f)
    = G0 (V c main_v0) (V c main_v5) (V c main_v9) (((cfg0.win 3).blk t).view.emb (ix2 p f))
  have hemb : ((cfg0.win 3).blk t).view.emb (ix2 p f) = ix2 (row0 t p) f := by
    funext a; apply Fin.ext
    match a with
    | ⟨0, _⟩ => show win0_3.index t (0 : Fin 2) * 1024 + 1 * p.val = t.val * 1024 + p.val; omega
    | ⟨1, _⟩ => show win0_3.index t (1 : Fin 2) * 3072 + 1 * f.val = f.val; omega
  rw [hemb]
  refine block_entry (V c main_v0) (V c main_v5) (V c main_v9) _ _ _ t (fun p d => ?_) (fun d f => ?_) (fun f => ?_) p f
  · show V c main_v0 (((cfg0.win 0).blk t).view.emb (ix2 p d)) = V c main_v0 (ix2 (row0 t p) d)
    refine congrArg (V c main_v0) (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * d.val = d.val; omega
  · show V c main_v5 (((cfg0.win 1).blk t).view.emb (ix2 d f)) = V c main_v5 (ix2 d f)
    refine congrArg (V c main_v5) (funext fun a => Fin.ext ?_)
    match a with
    | ⟨0, _⟩ => show win0_1.index t (0 : Fin 2) * 1024 + 1 * d.val = d.val; omega
    | ⟨1, _⟩ => show win0_1.index t (1 : Fin 2) * 3072 + 1 * f.val = f.val; omega
  · show V c main_v9 (((cfg0.win 2).blk t).view.emb (ix2 (0 : Fin 1) f)) = V c main_v9 (ix2 (0 : Fin 1) f)
    refine congrArg (V c main_v9) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 3072 + 1 * f.val = f.val; omega

end Cert.KernelIdeal.Hand

end
-- ==== Proof.Final0.lean ====
/-
  The fused projection's output array after the first call.

  Point t of the 8 writes back rows 1024·t … 1024·t + 1023 of the output. Row r is in the block of point r / 1024, so
  the blocks fill the array, and it ends holding, at (r, n), the inner product of row r of the input with column n of the
  fused weights, plus the bias at n.
-/
import proofs.«162190_j88794153877525_2_alg».proof.Proof.Final0Point
import Idealize.ShloMosaic.Lib.Pipeline.Value

noncomputable section

namespace Cert.KernelIdeal.Hand

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)
open scoped BigOperators

-- the buffer contents when the region is entered
variable (V : (c : Dev nD) → (b : Ref sig .tc) → Buf (Elt Ideal) ((c : Thread nD τ).loc b))

/-! ## The blocks fill the array -/

/-- An index of the array is in point t's block iff each coordinate is in the block's range on its axis. -/
theorem mem_blk0 (t : Fin cfg0.N) (i : S8192x3072.Idx) :
    i ∈ ((cfg0.win 3).blk t).view.set
      ↔ ∀ a : Fin 2, win0_3.index t a * S1024x3072.size a ≤ (i a).val ∧ (i a).val < win0_3.index t a * S1024x3072.size a + S1024x3072.size a := by
  show i ∈ ((View.whole main_v10).slice (win0_3.rect t)).set ↔ _
  rw [View.set_slice_whole, Rect.mem_set_unit]
  exact Iff.rfl

/-- Every entry of the array is in the block of the point its row belongs to. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  let t : Fin cfg0.N := ⟨(i 0).val / 1024, lt_of_lt_of_eq (by omega) N_0.symm⟩
  obtain ⟨-, -, -, -, -, -, e30, e31⟩ := idx_facts0 t
  have ht : t.val = (i 0).val / 1024 := rfl
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 3072 ≤ (i 1).val ∧ (i 1).val < win0_3.index t (1 : Fin 2) * 3072 + 3072; omega

/-! ## The whole array -/

/-- THE ARRAY after the call: the product of the input with the fused weights plus the bias row, entry by entry. -/
theorem final0_array (c : Dev nD) :
    (dat0 (F := Ideal) V c).arrAt 3 cfg0.N = G0 (V c main_v0) (V c main_v5) (V c main_v9) :=
  (dat0 (F := Ideal) V c).arrAt_eq_of_cover 3 (G0 (V c main_v0) (V c main_v5) (V c main_v9))
    (fun t _ => flushed0_eq V c t) cover0

/-- The same at an entry (r, n), the three arrays the region finds named A, W and B. -/
theorem final0 (c : Dev nD) (A : Vec Ideal S8192x1024 .f32) (W : Vec Ideal S1024x3072 .bf16) (B : Vec Ideal S1x3072 .f32)
    (hA : V c main_v0 = A) (hW : V c main_v5 = W) (hB : V c main_v9 = B) (r : Fin 8192) (n : Fin 3072) :
    (dat0 (F := Ideal) V c).arrAt 3 cfg0.N (ix2 r n) = (∑ d : Fin 1024, A (ix2 r d) * W (ix2 d n)) + B (ix2 0 n) := by
  subst hA hW hB
  exact (congrFun (final0_array V c) (ix2 r n)).trans (G0_apply _ _ _ r n)

end Cert.KernelIdeal.Hand

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«162190_j88794153877525_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«162190_j88794153877525_2_alg».proof.Proof.LibInnerProducts
import proofs.«162190_j88794153877525_2_alg».proof.Proof.LibInDimRow
import proofs.«162190_j88794153877525_2_alg».proof.Proof.LibKeepdims
import proofs.«162190_j88794153877525_2_alg».proof.Proof.LibInDimLayout
import proofs.«162190_j88794153877525_2_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«162190_j88794153877525_2_alg».proof.Proof.LibKeepdims
import proofs.«162190_j88794153877525_2_alg».proof.Proof.LibInDimLayout
import proofs.«162190_j88794153877525_2_alg».proof.Proof.LibExtremeReduce
import proofs.«162190_j88794153877525_2_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.LibBlockRows.lean ====
/-
  Rows of the three dense stages, read at an index on the extended reals.

  A kernel works on a block of rows and the plain program on the whole matrix; when row p of the block is row r of
  the matrix, what the kernel's operations leave at (p, f) is what the host's operations leave at (r, f):
    * a matrix product into zero: the sum over d of x (r, d) · w (d, f);
    * the rectified, biased product: the sum over d of max (h (r, d) + b d, 0) · w (d, f);
    * the row softmax of the biased row: exp (l k − M) / ∑ exp (l j − M), with l k = h (r, k) + b k and M the row
      maximum (which the host takes once more against −∞; the maximum with −∞ is the identity).
  A change of float format is the identity on the extended reals, so the formats of the factors play no part.
-/
import Idealize.ShloMosaic.PureOps.Ideal.Laws
import Idealize.ShloMosaic.Lib.ValueIdx
import Idealize.ShloMosaic.Lib.ValueLayout
import Idealize.ShloMosaic.Lib.Pipeline.Value
import proofs.«162190_j88794153877525_2_alg».proof.Proof.LibInnerProducts
import proofs.«162190_j88794153877525_2_alg».proof.Proof.LibKeepdims
import proofs.«162190_j88794153877525_2_alg».proof.Proof.LibExtremeReduce
import proofs.«162190_j88794153877525_2_alg».proof.Proof.LibDenseRows
import proofs.«162190_j88794153877525_2_alg».proof.Proof.LibRowSoftmax

noncomputable section

namespace Cert.Gcn.Rows

open Idealize.ShloMosaic Idealize.ShloMosaic.ValueIdx
open scoped BigOperators

/-- The block's product at (p, f) is the matrix's product at (r, f) when row p of the block is row r of the matrix. -/
theorem product_row {M B K N : ℕ} {φ : FTy}
    (Db : DotDims ⟨2, ![B, K]⟩ ⟨2, ![K, N]⟩ ⟨2, ![B, N]⟩) (hDb : Db = DotDims.plain B K N)
    (D : DotDims ⟨2, ![M, K]⟩ ⟨2, ![K, N]⟩ ⟨2, ![M, N]⟩) (hD : D = DotDims.plain M K N)
    (x : FVec Ideal ⟨2, ![M, K]⟩ .f32) (xb : FVec Ideal ⟨2, ![B, K]⟩ .f32) (w : FVec Ideal ⟨2, ![K, N]⟩ φ)
    (hbits : FTy.bf16.bits < FTy.f32.bits) (hs : (⟨2, ![K, N]⟩ : Shape).ShapeCasts ⟨2, ![K, N]⟩)
    (r : Fin M) (p : Fin B) (hx : ∀ d : Fin K, xb (ix2 p d) = x (ix2 r d)) (f : Fin N) :
    matmul Db none (truncf .bf16 xb hbits) (shapeCast ⟨2, ![K, N]⟩ w hs) (constant (F := Ideal) ⟨2, ![B, N]⟩ .f32 0x00000000#32) (ix2 p f)
      = Host.dotGeneral D none x w (ix2 r f) := by
  rw [InnerProducts.matmul_zero_apply Db hDb none _ _ p f, InnerProducts.dotGeneral_apply D hD none x w r f, shapeCast_self w hs]
  exact Finset.sum_congr rfl fun d _ => congrArg (· * w (ix2 d f)) (hx d)

/-- A scalar spread over a matrix reads the scalar everywhere. -/
theorem inDim_scalar_matrix_apply {a b : ℕ} {α : Type} (v : (⟨0, ![]⟩ : Shape).Idx → α)
    (h : (⟨0, ![]⟩ : Shape).BroadcastsInDim ⟨2, ![a, b]⟩ ![]) (j : (⟨2, ![a, b]⟩ : Shape).Idx) :
    broadcastInDim ⟨2, ![a, b]⟩ ![] h v j = v ix0 :=
  broadcastInDim_apply _ h v j ix0 fun ax => ax.elim0

/-- The rectified biased entry, in the kernel's form on a block and in the host's form on the matrix. -/
theorem rectified_entry {M B K : ℕ}
    (h : FVec Ideal ⟨2, ![M, K]⟩ .f32) (hb : FVec Ideal ⟨2, ![B, K]⟩ .f32) (b : FVec Ideal ⟨1, ![K]⟩ .f32)
    (hss : (⟨2, ![B, K]⟩ : Shape).ShapeCasts ⟨2, ![B, K]⟩) (hc : (⟨1, ![K]⟩ : Shape).ShapeCasts ⟨2, ![1, K]⟩)
    (hbr : (⟨2, ![1, K]⟩ : Shape).Broadcasts ⟨2, ![B, K]⟩)
    (h1 : (⟨1, ![K]⟩ : Shape).BroadcastsInDim ⟨2, ![1, K]⟩ ![1]) (h2 : (⟨2, ![1, K]⟩ : Shape).BroadcastsInDim ⟨2, ![M, K]⟩ ![0, 1])
    (h0 : (⟨0, ![]⟩ : Shape).BroadcastsInDim ⟨2, ![M, K]⟩ ![])
    (r : Fin M) (p : Fin B) (hx : ∀ d : Fin K, hb (ix2 p d) = h (ix2 r d)) (d : Fin K) :
    maximumf (addf (shapeCast ⟨2, ![B, K]⟩ hb hss) (broadcastTo ⟨2, ![B, K]⟩ (shapeCast ⟨2, ![1, K]⟩ b hc) hbr))
        (broadcast ⟨2, ![B, K]⟩ (Scalar.ofBits (F := Ideal) .f32 0x00000000#32)) (ix2 p d)
      = maximumf (addf h (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32)) (ix2 r d) := by
  show max (shapeCast ⟨2, ![B, K]⟩ hb hss (ix2 p d) + broadcastTo ⟨2, ![B, K]⟩ (shapeCast ⟨2, ![1, K]⟩ b hc) hbr (ix2 p d)) (Ideal.ofBits .f32 0x00000000#32)
    = max (h (ix2 r d) + broadcastInDim ⟨2, ![M, K]⟩ ![0, 1] h2 (broadcastInDim ⟨2, ![1, K]⟩ ![1] h1 b) (ix2 r d))
        (broadcastInDim ⟨2, ![M, K]⟩ ![] h0 (constant (F := Ideal) ⟨0, ![]⟩ .f32 0x00000000#32) (ix2 r d))
  rw [shapeCast_self hb hss, Cert.DenseRows.biasRow_apply b hc hbr p d, Cert.DenseRows.biasRowHost_apply b h1 h2 r d, hx d,
    inDim_scalar_matrix_apply _ h0 (ix2 r d)]
  rfl

/-- The block's rectified product at (p, f) is the matrix's at (r, f) when row p of the block is row r of the matrix. -/
theorem hidden_row {M B K N : ℕ} {φ : FTy}
    (Db : DotDims ⟨2, ![B, K]⟩ ⟨2, ![K, N]⟩ ⟨2, ![B, N]⟩) (hDb : Db = DotDims.plain B K N)
    (D : DotDims ⟨2, ![M, K]⟩ ⟨2, ![K, N]⟩ ⟨2, ![M, N]⟩) (hD : D = DotDims.plain M K N)
    (h : FVec Ideal ⟨2, ![M, K]⟩ .f32) (hb : FVec Ideal ⟨2, ![B, K]⟩ .f32) (b : FVec Ideal ⟨1, ![K]⟩ .f32)
    (w : FVec Ideal ⟨2, ![K, N]⟩ φ)
    (hbits : FTy.bf16.bits < FTy.f32.bits) (hs : (⟨2, ![K, N]⟩ : Shape).ShapeCasts ⟨2, ![K, N]⟩)
    (hss : (⟨2, ![B, K]⟩ : Shape).ShapeCasts ⟨2, ![B, K]⟩) (hc : (⟨1, ![K]⟩ : Shape).ShapeCasts ⟨2, ![1, K]⟩)
    (hbr : (⟨2, ![1, K]⟩ : Shape).Broadcasts ⟨2, ![B, K]⟩)
    (h1 : (⟨1, ![K]⟩ : Shape).BroadcastsInDim ⟨2, ![1, K]⟩ ![1]) (h2 : (⟨2, ![1, K]⟩ : Shape).BroadcastsInDim ⟨2, ![M, K]⟩ ![0, 1])
    (h0 : (⟨0, ![]⟩ : Shape).BroadcastsInDim ⟨2, ![M, K]⟩ ![])
    (r : Fin M) (p : Fin B) (hx : ∀ d : Fin K, hb (ix2 p d) = h (ix2 r d)) (f : Fin N) :
    matmul Db none
        (truncf .bf16 (maximumf (addf (shapeCast ⟨2, ![B, K]⟩ hb hss) (broadcastTo ⟨2, ![B, K]⟩ (shapeCast ⟨2, ![1, K]⟩ b hc) hbr))
          (broadcast ⟨2, ![B, K]⟩ (Scalar.ofBits (F := Ideal) .f32 0x00000000#32))) hbits)
        (shapeCast ⟨2, ![K, N]⟩ w hs) (constant (F := Ideal) ⟨2, ![B, N]⟩ .f32 0x00000000#32) (ix2 p f)
      = Host.dotGeneral D none
          (maximumf (addf h (broadcastInDim ⟨2, ![M, K]⟩ ![0, 1] h2 (broadcastInDim ⟨2, ![1, K]⟩ ![1] h1 b)))
            (broadcastInDim ⟨2, ![M, K]⟩ ![] h0 (constant (F := Ideal) ⟨0, ![]⟩ .f32 0x00000000#32))) w (ix2 r f) := by
  rw [InnerProducts.matmul_zero_apply Db hDb none _ _ p f, InnerProducts.dotGeneral_apply D hD none _ w r f, shapeCast_self w hs]
  exact Finset.sum_congr rfl fun d _ => congrArg (· * w (ix2 d f)) (rectified_entry h hb b hss hc hbr h1 h2 h0 r p hx d)

/-- A kernel's softmax of an [M, n] block at (p, q): lane maximum and lane sum, each cast to a column and broadcast back. -/
theorem softmax_lanes_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (multiReduction .maximumf [1] ⟨1, ![M]⟩ src 0xFF800000#32 h hφ hmax) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (multiReduction .maximumf [1] ⟨1, ![M]⟩ src 0xFF800000#32 h hφ hmax) hc) hb)))
            0x00000000#32 h hφ hadd) hc) hb) (ix2 p q)
      = Cert.DenseRows.softmax (fun k => src (ix2 p k)) q := by
  -- the row maximum, spread back over the row, read at any entry of row p
  have hm : ∀ k : Fin n, broadcastTo ⟨2, ![M, n]⟩ (shapeCast ⟨2, ![M, 1]⟩
        (multiReduction .maximumf [1] ⟨1, ![M]⟩ src 0xFF800000#32 h hφ hmax) hc) hb (ix2 p k)
        = max ⊥ (⨆ j : Fin n, src (ix2 p j)) := by
    intro k
    rw [Cert.LibKeepdims.broadcastTo_a1_ab_apply _ hb p k, Cert.LibKeepdims.shapeCast_a_a1_apply _ hc p 0,
      ExtremeReduce.multiReduction_max_single src h hφ hmax (ix1 p), max_bot_left]
    show (⨆ j : Fin n, src (h.lift (ix1 p) j)) = _
    simp only [Cert.DenseRows.lift_ix1]
  -- the exponential of the shifted row, at any entry of row p
  have he : ∀ k : Fin n, exp (subf src (broadcastTo ⟨2, ![M, n]⟩ (shapeCast ⟨2, ![M, 1]⟩
        (multiReduction .maximumf [1] ⟨1, ![M]⟩ src 0xFF800000#32 h hφ hmax) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold Cert.DenseRows.softmax
  refine congrArg (Ideal.div _) ?_
  show ∑ k : Fin n, _ = _
  refine Finset.sum_congr rfl fun k _ => ?_
  rw [Cert.DenseRows.lift_ix1 h p k, he k]

/-- The biased row, in the kernel's form on a block and in the host's form on the matrix. -/
theorem biased_entry {M B N : ℕ}
    (h : FVec Ideal ⟨2, ![M, N]⟩ .f32) (hb : FVec Ideal ⟨2, ![B, N]⟩ .f32) (b : FVec Ideal ⟨1, ![N]⟩ .f32)
    (hss : (⟨2, ![B, N]⟩ : Shape).ShapeCasts ⟨2, ![B, N]⟩) (hc : (⟨1, ![N]⟩ : Shape).ShapeCasts ⟨2, ![1, N]⟩)
    (hbr : (⟨2, ![1, N]⟩ : Shape).Broadcasts ⟨2, ![B, N]⟩)
    (h1 : (⟨1, ![N]⟩ : Shape).BroadcastsInDim ⟨2, ![1, N]⟩ ![1]) (h2 : (⟨2, ![1, N]⟩ : Shape).BroadcastsInDim ⟨2, ![M, N]⟩ ![0, 1])
    (r : Fin M) (p : Fin B) (hx : ∀ k : Fin N, hb (ix2 p k) = h (ix2 r k)) (k : Fin N) :
    addf (shapeCast ⟨2, ![B, N]⟩ hb hss) (broadcastTo ⟨2, ![B, N]⟩ (shapeCast ⟨2, ![1, N]⟩ b hc) hbr) (ix2 p k)
      = addf h (broadcastInDim ⟨2, ![M, N]⟩ ![0, 1] h2 (broadcastInDim ⟨2, ![1, N]⟩ ![1] h1 b)) (ix2 r k) := by
  show shapeCast ⟨2, ![B, N]⟩ hb hss (ix2 p k) + broadcastTo ⟨2, ![B, N]⟩ (shapeCast ⟨2, ![1, N]⟩ b hc) hbr (ix2 p k)
    = h (ix2 r k) + broadcastInDim ⟨2, ![M, N]⟩ ![0, 1] h2 (broadcastInDim ⟨2, ![1, N]⟩ ![1] h1 b) (ix2 r k)
  rw [shapeCast_self hb hss, Cert.DenseRows.biasRow_apply b hc hbr p k, Cert.DenseRows.biasRowHost_apply b h1 h2 r k, hx k]

end Cert.Gcn.Rows

end
-- ==== Proof.Spec.lean ====
/-
  Multi-head attention over the extended reals, as ONE function of the argument arrays, coordinate by coordinate.

  X is [4, 2048, 1024] (batch, position, feature); the four weight matrices are [1024, 1024], stored [out, in];
  the bias is [1024]. There are 16 heads of width 64: column 64·h + e of a projected row is entry e of head h.
  Each of Q, K, V is a row of X against the rows of its weight matrix. A score is the inner product over the head's
  64 entries of the query entry scaled by 1/8 with the key entry; the weights of one query are the softmax of its
  2048 scores; a head's output is the weighted sum of the value rows; the heads are laid side by side again and
  projected by the last matrix, plus the bias.
-/
import Idealize.ShloMosaic.PureOps.Ideal
import Idealize.ShloMosaic.Lib.ValueIdx
import proofs.«162190_j88794153877525_2_alg».proof.Proof.LibDenseRows

noncomputable section

namespace Cert.Attn

open Idealize.ShloMosaic Idealize.ShloMosaic.ValueIdx
open scoped BigOperators

/-- The input's shape, a weight matrix's and the bias's. -/
abbrev SX : Shape := ⟨3, ![4, 2048, 1024]⟩
abbrev SW : Shape := ⟨2, ![1024, 1024]⟩
abbrev SB : Shape := ⟨1, ![1024]⟩

/-- Column 64·h + e of a 1024-wide row: entry e of head h. -/
def col (h : Fin 16) (e : Fin 64) : Fin 1024 := ⟨h.val * 64 + e.val, by omega⟩

/-- The head a column belongs to, and its place inside the head. -/
def headOf (d : Fin 1024) : Fin 16 := ⟨d.val / 64, by omega⟩
def laneOf (d : Fin 1024) : Fin 64 := ⟨d.val % 64, Nat.mod_lt _ (by decide)⟩

theorem col_headOf_laneOf (d : Fin 1024) : col (headOf d) (laneOf d) = d :=
  Fin.ext (by simp only [col, headOf, laneOf]; omega)

theorem headOf_col (h : Fin 16) (e : Fin 64) : headOf (col h e) = h :=
  Fin.ext (by simp only [col, headOf]; omega)

theorem laneOf_col (h : Fin 16) (e : Fin 64) : laneOf (col h e) = e :=
  Fin.ext (by simp only [col, laneOf]; omega)

/-- A projection without bias: row (b, s) of X against row o of W. -/
def proj (X : SX.Idx → EReal) (W : SW.Idx → EReal) (b : Fin 4) (s : Fin 2048) (o : Fin 1024) : EReal :=
  ∑ d : Fin 1024, X (ix3 b s d) * W (ix2 o d)

/-- The scale 1/8, as the f32 word both programs spell it with. -/
def eighth : EReal := Ideal.ofBits .f32 0x3E000000#32

/-- The score of key position k for query position s in head h of batch b: the query entries scaled, then the inner
    product over the head's 64 entries. -/
def score (X : SX.Idx → EReal) (Wq Wk : SW.Idx → EReal) (b : Fin 4) (h : Fin 16) (s k : Fin 2048) : EReal :=
  ∑ e : Fin 64, (proj X Wq b s (col h e) * eighth) * proj X Wk b k (col h e)

/-- The attention weight: the softmax of the query's 2048 scores, at key k. -/
def weight (X : SX.Idx → EReal) (Wq Wk : SW.Idx → EReal) (b : Fin 4) (h : Fin 16) (s k : Fin 2048) : EReal :=
  Cert.DenseRows.softmax (fun k' : Fin 2048 => score X Wq Wk b h s k') k

/-- Entry e of head h's output at position s: the weighted sum of the value rows. -/
def head (X : SX.Idx → EReal) (Wq Wk Wv : SW.Idx → EReal) (b : Fin 4) (h : Fin 16) (s : Fin 2048) (e : Fin 64) : EReal :=
  ∑ k : Fin 2048, weight X Wq Wk b h s k * proj X Wv b k (col h e)

/-- The heads side by side again: column d of row (b, s). -/
def merged (X : SX.Idx → EReal) (Wq Wk Wv : SW.Idx → EReal) (b : Fin 4) (s : Fin 2048) (d : Fin 1024) : EReal :=
  head X Wq Wk Wv b (headOf d) s (laneOf d)

/-- The result at (b, s, o): the merged row against row o of the last matrix, plus the bias. -/
def outAt (X : SX.Idx → EReal) (Wq Wk Wv Wh : SW.Idx → EReal) (bh : SB.Idx → EReal)
    (b : Fin 4) (s : Fin 2048) (o : Fin 1024) : EReal :=
  (∑ d : Fin 1024, merged X Wq Wk Wv b s d * Wh (ix2 o d)) + bh (ix1 o)

/-- The result as one array. -/
def out (X : SX.Idx → EReal) (Wq Wk Wv Wh : SW.Idx → EReal) (bh : SB.Idx → EReal) : SX.Idx → EReal :=
  fun i => outAt X Wq Wk Wv Wh bh (i 0) (i 1) (i 2)

theorem out_ix3 (X : SX.Idx → EReal) (Wq Wk Wv Wh : SW.Idx → EReal) (bh : SB.Idx → EReal)
    (b : Fin 4) (s : Fin 2048) (o : Fin 1024) :
    out X Wq Wk Wv Wh bh (ix3 b s o) = outAt X Wq Wk Wv Wh bh b s o := rfl

end Cert.Attn

end
-- ==== Proof.Pay1.lean ====
/-
  The attention call's block for one pair of heads, read at an entry.

  The queries [1, 1024, 128] and the keys and values [1, 2048, 128] hold two heads side by side: lanes [0, 64) are the
  first head's entries and lanes [64, 128) the second's. For each head the scores are the inner products over the
  head's 64 lanes of a query row with the key rows, scaled by 1/8; the weights are the softmax of a query's 2048
  scores; the head's output is the weighted sum of the value rows over the head's lanes. The two outputs are laid side
  by side again. On the extended reals a change of float format is the identity, so entry (0, s, c) of what is stored
  is the weighted sum, over the key positions, of the value entries at lane c, with the weights of the head that lane
  c belongs to.
-/
import Idealize.ShloMosaic.Lib.ValueLayout
import proofs.«162190_j88794153877525_2_alg».proof.Proof.Gen.KernelIdeal.Skeleton
import proofs.«162190_j88794153877525_2_alg».proof.Proof.LibInnerProducts
import proofs.«162190_j88794153877525_2_alg».proof.Proof.LibRowDots
import proofs.«162190_j88794153877525_2_alg».proof.Proof.LibConcatPair
import proofs.«162190_j88794153877525_2_alg».proof.Proof.LibBlockRows
import proofs.«162190_j88794153877525_2_alg».proof.Proof.Spec

noncomputable section

namespace Cert.KernelIdeal.Pay

open Idealize.ShloMosaic Idealize.ShloMosaic.ValueIdx
open Cert.KernelIdeal Cert.KernelIdeal.Gen
open scoped BigOperators

/-- The lanes [o, o + 64) of a [1, n, 128] block seen as a matrix of n rows: entry (r, e) is the block at (0, r, c)
    for the lane c = o + e. -/
theorem lanes_apply {n : ℕ} (o : ℕ) (x : Vec Ideal ⟨3, ![1, n, 128]⟩ .bf16)
    (hc : (⟨3, ![1, n, 128]⟩ : Shape).ShapeCasts ⟨2, ![n, 128]⟩)
    (hs : (⟨2, ![n, 128]⟩ : Shape).Slices ![0, o] ⟨2, ![n, 64]⟩) (r : Fin n) (e : Fin 64) (c : Fin 128)
    (hce : c.val = o + e.val) :
    extractStridedSlice ⟨2, ![n, 64]⟩ ![0, o] (shapeCast ⟨2, ![n, 128]⟩ x hc) hs (ix2 r e) = x (ix3 0 r c) :=
  (slice2_axis1_apply o (shapeCast ⟨2, ![n, 128]⟩ x hc) hs r e c hce).trans (shapeCast_1ab_ab_apply x hc r c)

/-- The scaled scores of the head whose lanes start at o: at (s, k') the inner product over the head's lanes of query
    row s with key row k', times 1/8. -/
theorem scores_apply (o : ℕ) (q : Vec Ideal S1x1024x128 .bf16) (k : Vec Ideal S1x2048x128 .bf16)
    (hq : S1024x128.Slices ![0, o] S1024x64) (hk : S2048x128.Slices ![0, o] S2048x64)
    (s : Fin 1024) (k' : Fin 2048) (c : Fin 64 → Fin 128) (hc : ∀ e', (c e').val = o + e'.val) :
    mulf (matmul dot_S1024x64_S2048x64_S1024x2048_1_1_0_0_n_n none
          (extractStridedSlice S1024x64 ![0, o] (k1_pay2 q) hq) (extractStridedSlice S2048x64 ![0, o] (k1_pay3 k) hk)
          (constant (F := Ideal) S1024x2048 .f32 0x00000000#32))
        (broadcast S1024x2048 (Scalar.ofBits (F := Ideal) .f32 0x3E000000#32)) (ix2 s k')
      = (∑ e' : Fin 64, q (ix3 0 s (c e')) * k (ix3 0 k' (c e'))) * Cert.Attn.eighth := by
  show matmul dot_S1024x64_S2048x64_S1024x2048_1_1_0_0_n_n none
      (extractStridedSlice S1024x64 ![0, o] (k1_pay2 q) hq) (extractStridedSlice S2048x64 ![0, o] (k1_pay3 k) hk)
      (constant (F := Ideal) S1024x2048 .f32 0x00000000#32) (ix2 s k') * Cert.Attn.eighth = _
  refine congrArg (· * Cert.Attn.eighth) ?_
  refine (Cert.LibRowDots.matmul_rows dot_S1024x64_S2048x64_S1024x2048_1_1_0_0_n_n_wf
    dot_S1024x64_S2048x64_S1024x2048_1_1_0_0_n_n rfl none _ _ s k').trans ?_
  refine Finset.sum_congr rfl fun e' _ => ?_
  exact congrArg₂ (· * ·) (lanes_apply o q shapeCasts_S1x1024x128_S1024x128 hq s e' (c e') (hc e'))
    (lanes_apply o k shapeCasts_S1x2048x128_S2048x128 hk k' e' (c e') (hc e'))

/-- The second head's weights: at (s, kk) the softmax of query s's 2048 scaled scores, at key kk. -/
theorem pay7_apply (q : Vec Ideal S1x1024x128 .bf16) (k : Vec Ideal S1x2048x128 .bf16) (s : Fin 1024) (kk : Fin 2048)
    (c : Fin 64 → Fin 128) (hc : ∀ e', (c e').val = 64 + e'.val) :
    k1_pay7 q k (ix2 s kk)
      = Cert.DenseRows.softmax (fun k' : Fin 2048 =>
          (∑ e' : Fin 64, q (ix3 0 s (c e')) * k (ix3 0 k' (c e'))) * Cert.Attn.eighth) kk := by
  unfold k1_pay7
  refine (Cert.Gcn.Rows.softmax_lanes_apply _ reduces_S1024x2048_S1024 (.inl rfl) rfl rfl shapeCasts_S1024_S1024x1
    broadcasts_S1024x1_S1024x2048 s kk).trans ?_
  refine congrArg (fun l => Cert.DenseRows.softmax l kk) (funext fun k' => ?_)
  exact scores_apply 64 q k slices_S1024x128_o0_64_S1024x64 slices_S2048x128_o0_64_S2048x64 s k' c hc

/-- The second head's values: row kk at entry e is the values block at lane 64 + e. -/
theorem pay6_apply (v : Vec Ideal S1x2048x128 .bf16) (kk : Fin 2048) (e : Fin 64) (c : Fin 128) (hce : c.val = 64 + e.val) :
    k1_pay6 v (ix2 kk e) = v (ix3 0 kk c) := by
  unfold k1_pay6
  exact lanes_apply 64 v shapeCasts_S1x2048x128_S2048x128 slices_S2048x128_o0_64_S2048x64 kk e c hce

/-- The first head's output: at (s, e) the weighted sum of the value entries at the head's lane e. -/
theorem pay5_apply (q : Vec Ideal S1x1024x128 .bf16) (k v : Vec Ideal S1x2048x128 .bf16) (s : Fin 1024) (e : Fin 64)
    (c : Fin 64 → Fin 128) (hc : ∀ e', (c e').val = 0 + e'.val) :
    k1_pay5 q k v (ix2 s e)
      = ∑ kk : Fin 2048, Cert.DenseRows.softmax (fun k' : Fin 2048 =>
          (∑ e' : Fin 64, q (ix3 0 s (c e')) * k (ix3 0 k' (c e'))) * Cert.Attn.eighth) kk * v (ix3 0 kk (c e)) := by
  unfold k1_pay5
  refine (InnerProducts.matmul_zero_apply dot_S1024x2048_S2048x64_S1024x64_1_0_0_1_n_n rfl none _ _ s e).trans ?_
  refine Finset.sum_congr rfl fun kk _ => ?_
  refine congrArg₂ (· * ·) ?_
    (lanes_apply 0 v shapeCasts_S1x2048x128_S2048x128 slices_S2048x128_o0_0_S2048x64 kk e (c e) (hc e))
  refine (Cert.Gcn.Rows.softmax_lanes_apply _ reduces_S1024x2048_S1024 (.inl rfl) rfl rfl shapeCasts_S1024_S1024x1
    broadcasts_S1024x1_S1024x2048 s kk).trans ?_
  refine congrArg (fun l => Cert.DenseRows.softmax l kk) (funext fun k' => ?_)
  exact scores_apply 0 q k slices_S1024x128_o0_0_S1024x64 slices_S2048x128_o0_0_S2048x64 s k' c hc

/-- The stored block at a lane of the first head: the first head's output. -/
theorem pay1_left (q : Vec Ideal S1x1024x128 .bf16) (k v : Vec Ideal S1x2048x128 .bf16) (s : Fin 1024) (e : Fin 64)
    (c : Fin 64 → Fin 128) (hc : ∀ e', (c e').val = 0 + e'.val) :
    k1_pay1 (k1_pay5 q k v) (k1_pay6 v) (k1_pay7 q k) (ix3 0 s (c e))
      = ∑ kk : Fin 2048, Cert.DenseRows.softmax (fun k' : Fin 2048 =>
          (∑ e' : Fin 64, q (ix3 0 s (c e')) * k (ix3 0 k' (c e'))) * Cert.Attn.eighth) kk * v (ix3 0 kk (c e)) := by
  unfold k1_pay1
  refine (shapeCast_ab_1ab_apply _ shapeCasts_S1024x128_S1x1024x128 0 s (c e)).trans ?_
  refine (ConcatPair.cols_left _ _ concatenates_S1024x64_S1024x64_S1024x128_d1 s (c e) e (by rw [hc e]; omega)).trans ?_
  exact pay5_apply q k v s e c hc

/-- The stored block at a lane of the second head: the second head's weights against its values. -/
theorem pay1_right (q : Vec Ideal S1x1024x128 .bf16) (k v : Vec Ideal S1x2048x128 .bf16) (s : Fin 1024) (e : Fin 64)
    (c : Fin 64 → Fin 128) (hc : ∀ e', (c e').val = 64 + e'.val) :
    k1_pay1 (k1_pay5 q k v) (k1_pay6 v) (k1_pay7 q k) (ix3 0 s (c e))
      = ∑ kk : Fin 2048, Cert.DenseRows.softmax (fun k' : Fin 2048 =>
          (∑ e' : Fin 64, q (ix3 0 s (c e')) * k (ix3 0 k' (c e'))) * Cert.Attn.eighth) kk * v (ix3 0 kk (c e)) := by
  unfold k1_pay1
  refine (shapeCast_ab_1ab_apply _ shapeCasts_S1024x128_S1x1024x128 0 s (c e)).trans ?_
  refine (ConcatPair.cols_right _ _ concatenates_S1024x64_S1024x64_S1024x128_d1 s (c e) e (by rw [hc e]; omega)).trans ?_
  refine (InnerProducts.matmul_zero_apply dot_S1024x2048_S2048x64_S1024x64_1_0_0_1_n_n rfl none _ _ s e).trans ?_
  refine Finset.sum_congr rfl fun kk _ => ?_
  exact congrArg₂ (· * ·) (pay7_apply q k s kk c hc) (pay6_apply v kk e (c e) (hc e))

/-- Entry (0, s, 64·half + e) of the attention call's stored block: the weighted sum, over the 2048 key positions, of
    the value entries at that lane, the weights being the softmax of the scaled scores of head `half` of the pair. -/
theorem pay1_apply (q : Vec Ideal S1x1024x128 .bf16) (k v : Vec Ideal S1x2048x128 .bf16) (s : Fin 1024) (half : Fin 2)
    (e : Fin 64) :
    k1_pay1 (k1_pay5 q k v) (k1_pay6 v) (k1_pay7 q k) (ix3 0 s ⟨half.val * 64 + e.val, by omega⟩)
      = ∑ kk : Fin 2048, Cert.DenseRows.softmax (fun k' : Fin 2048 =>
          (∑ e' : Fin 64, q (ix3 0 s ⟨half.val * 64 + e'.val, by omega⟩) * k (ix3 0 k' ⟨half.val * 64 + e'.val, by omega⟩))
            * Cert.Attn.eighth) kk * v (ix3 0 kk ⟨half.val * 64 + e.val, by omega⟩) :=
  match half with
  | ⟨0, _⟩ => pay1_left q k v s e (fun e' => ⟨0 * 64 + e'.val, by omega⟩) (fun e' => by show 0 * 64 + e'.val = 0 + e'.val; omega)
  | ⟨1, _⟩ => pay1_right q k v s e (fun e' => ⟨1 * 64 + e'.val, by omega⟩) (fun e' => by show 1 * 64 + e'.val = 64 + e'.val; omega)

end Cert.KernelIdeal.Pay

end
-- ==== Proof.Final1.lean ====
/-
  The attention call's output array as one function of the fused projections' array.

  The call runs over a grid of 4 × 8 × 2 points (batch, pair of heads, half of the query positions). At a point it reads,
  from the one array [4, 2048, 3072] that holds the queries in columns [0, 1024), the keys in [1024, 2048) and the values
  in [2048, 3072), a block of 1024 query rows and all 2048 key and value rows of the batch, each 128 columns wide (the
  pair's two heads), and writes one block [1, 1024, 128] of the output [4, 2048, 1024]. The blocks written tile the
  output, and each holds, entry by entry, the attention of the head its column belongs to. So the output at
  (b, s, 64·h + e) is the sum over the key positions of the softmax weight of query s for that key, in head h of batch
  b, times entry e of the head's value row.
-/
import Idealize.ShloMosaic.Lib.Pipeline.Value
import proofs.«162190_j88794153877525_2_alg».proof.Proof.Body1
import proofs.«162190_j88794153877525_2_alg».proof.Proof.Pay1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-! ## The columns of the fused array, and the result entry by entry -/

/-- Entry e of head h among the query columns of the fused array. -/
def qcol (h : Fin 16) (e : Fin 64) : Fin 3072 := ⟨(Cert.Attn.col h e).val, by have := (Cert.Attn.col h e).isLt; omega⟩
/-- Entry e of head h among the key columns. -/
def kcol (h : Fin 16) (e : Fin 64) : Fin 3072 := ⟨1024 + (Cert.Attn.col h e).val, by have := (Cert.Attn.col h e).isLt; omega⟩
/-- Entry e of head h among the value columns. -/
def vcol (h : Fin 16) (e : Fin 64) : Fin 3072 := ⟨2048 + (Cert.Attn.col h e).val, by have := (Cert.Attn.col h e).isLt; omega⟩

/-- Attention of head h of batch b at query position s, entry e, read off the fused array A: the softmax weights of
    the scaled scores against the value entries. -/
def attnAt (A : S4x2048x3072.Idx → Elt Ideal .bf16) (b : Fin 4) (s : Fin 2048) (h : Fin 16) (e : Fin 64) : EReal :=
  ∑ kk : Fin 2048, Cert.DenseRows.softmax (fun k' : Fin 2048 =>
    (∑ e' : Fin 64, A (ix3 b s (qcol h e')) * A (ix3 b k' (kcol h e'))) * Cert.Attn.eighth) kk * A (ix3 b kk (vcol h e))

/-- The same, written out. -/
theorem attnAt_def (A : S4x2048x3072.Idx → Elt Ideal .bf16) (b : Fin 4) (s : Fin 2048) (h : Fin 16) (e : Fin 64) :
    attnAt A b s h e = ∑ kk : Fin 2048, Cert.DenseRows.softmax (fun k' : Fin 2048 =>
      (∑ e' : Fin 64, A (ix3 b s (qcol h e')) * A (ix3 b k' (kcol h e'))) * Cert.Attn.eighth) kk * A (ix3 b kk (vcol h e)) := rfl

/-- The output array: column d of row (b, s) is entry d mod 64 of head d / 64. -/
def G1 (A : S4x2048x3072.Idx → Elt Ideal .bf16) : S4x2048x1024.Idx → Elt Ideal .bf16 :=
  fun i => attnAt A (i 0) (i 1) (Cert.Attn.headOf (i 2)) (Cert.Attn.laneOf (i 2))

theorem G1_ix3 (A : S4x2048x3072.Idx → Elt Ideal .bf16) (b : Fin 4) (s : Fin 2048) (o : Fin 1024) :
    G1 A (ix3 b s o) = attnAt A b s (Cert.Attn.headOf o) (Cert.Attn.laneOf o) := rfl

/-- A lane of a pair of heads: 64·half + e is below 128. -/
theorem lane_lt (half : Fin 2) (e : Fin 64) : half.val * 64 + e.val < 128 := by omega

/-! ## One block: what the body computes from three blocks that are parts of one array -/

/-- If the three loaded blocks are the parts of the fused array A that the block index (i0, i1, i2) of the output names
    — query rows i1·1024 + s' at columns i2·128 + l, all key rows at columns (8 + i2)·128 + l, all value rows at
    columns (16 + i2)·128 + l, in batch i0 — then the body's value at (0, s', l) is the output function at the entry
    (i0, i1·1024 + s', i2·128 + l). -/
theorem attn_block_entry (A : S4x2048x3072.Idx → Elt Ideal .bf16)
    (x0 : Vec Ideal S1x1024x128 .bf16) (x1 x2 : Vec Ideal S1x2048x128 .bf16) (i0 i1 i2 : ℕ)
    (h0 : ∀ (s' : Fin 1024) (l : Fin 128) (i : S4x2048x3072.Idx), (i 0).val = i0 → (i 1).val = i1 * 1024 + s'.val →
      (i 2).val = i2 * 128 + l.val → x0 (ix3 0 s' l) = A i)
    (h1 : ∀ (k' : Fin 2048) (l : Fin 128) (i : S4x2048x3072.Idx), (i 0).val = i0 → (i 1).val = k'.val →
      (i 2).val = (8 + i2) * 128 + l.val → x1 (ix3 0 k' l) = A i)
    (h2 : ∀ (k' : Fin 2048) (l : Fin 128) (i : S4x2048x3072.Idx), (i 0).val = i0 → (i 1).val = k'.val →
      (i 2).val = (16 + i2) * 128 + l.val → x2 (ix3 0 k' l) = A i)
    (s' : Fin 1024) (l : Fin 128) (i : S4x2048x1024.Idx) (hi0 : (i 0).val = i0) (hi1 : (i 1).val = i1 * 1024 + s'.val)
    (hi2 : (i 2).val = i2 * 128 + l.val) :
    k1_pay1 (k1_pay5 x0 x1 x2) (k1_pay6 x2) (k1_pay7 x0 x1) (ix3 0 s' l) = G1 A i := by
  obtain ⟨b, s, o, rfl⟩ : ∃ (b : Fin 4) (s : Fin 2048) (o : Fin 1024), i = ix3 b s o := ⟨i 0, i 1, i 2, eq_ix3 i⟩
  obtain ⟨half, e, rfl⟩ : ∃ (half : Fin 2) (e : Fin 64), l = ⟨half.val * 64 + e.val, lane_lt half e⟩ :=
    ⟨⟨l.val / 64, by omega⟩, ⟨l.val % 64, Nat.mod_lt _ (by decide)⟩, Fin.ext (by show l.val = l.val / 64 * 64 + l.val % 64; omega)⟩
  have hb : b.val = i0 := hi0
  have hs : s.val = i1 * 1024 + s'.val := hi1
  have ho : o.val = i2 * 128 + (half.val * 64 + e.val) := hi2
  have hh : (Cert.Attn.headOf o).val = i2 * 2 + half.val := by
    show o.val / 64 = _
    omega
  have hl : (Cert.Attn.laneOf o).val = e.val := by
    show o.val % 64 = _
    omega
  refine (Cert.KernelIdeal.Pay.pay1_apply x0 x1 x2 s' half e).trans ?_
  rw [G1_ix3]
  unfold attnAt
  refine Finset.sum_congr rfl fun kk _ => ?_
  refine congrArg₂ (· * ·) ?_ (h2 kk _ (ix3 b kk (vcol (Cert.Attn.headOf o) (Cert.Attn.laneOf o))) hb rfl ?_)
  · refine congrArg (fun f => Cert.DenseRows.softmax f kk) (funext fun k' => ?_)
    refine congrArg (· * Cert.Attn.eighth) (Finset.sum_congr rfl fun e' _ => ?_)
    refine congrArg₂ (· * ·) (h0 s' _ (ix3 b s (qcol (Cert.Attn.headOf o) e')) hb hs ?_)
      (h1 k' _ (ix3 b k' (kcol (Cert.Attn.headOf o) e')) hb rfl ?_)
    · show (Cert.Attn.headOf o).val * 64 + e'.val = i2 * 128 + (half.val * 64 + e'.val)
      omega
    · show 1024 + ((Cert.Attn.headOf o).val * 64 + e'.val) = (8 + i2) * 128 + (half.val * 64 + e'.val)
      omega
  · show 2048 + ((Cert.Attn.headOf o).val * 64 + (Cert.Attn.laneOf o).val) = (16 + i2) * 128 + (half.val * 64 + e.val)
    omega

/-! ## The printed index maps over the grid -/

theorem hz3 : (![0, 0, 0] : Fin 3 → Nat) = fun _ => 0 := funext fun a => by fin_cases a <;> rfl

/-- Decided over the 64 points: the query window moves with the output window; the key and value windows share its
    batch, stay at row block 0 and sit 8 and 16 column blocks further on; the output's block indices stay in range. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = 8 + win1_3.index t (2 : Fin 3)
    ∧ win1_2.index t (0 : Fin 3) = win1_3.index t (0 : Fin 3) ∧ win1_2.index t (1 : Fin 3) = 0
    ∧ win1_2.index t (2 : Fin 3) = 16 + win1_3.index t (2 : Fin 3)
    ∧ win1_3.index t (0 : Fin 3) ≤ 3 ∧ win1_3.index t (1 : Fin 3) ≤ 1 ∧ win1_3.index t (2 : Fin 3) ≤ 7 :=
  (by decide +kernel : ∀ t : Fin grid1.N, _)

/-- Every block of the output is some point's. -/
theorem idx_onto1 : ∀ (q0 : Fin 4) (q1 : Fin 2) (q2 : Fin 8), ∃ t : Fin cfg1.N, win1_3.index t = ![q0.val, q1.val, q2.val] :=
  (by decide +kernel : ∀ (q0 : Fin 4) (q1 : Fin 2) (q2 : Fin 8), ∃ t : Fin grid1.N, win1_3.index t = ![q0.val, q1.val, q2.val])

/-! ## The input blocks are parts of the fused array -/

/-- The query block at point t: entry (0, s', l) is the fused array at the output block's batch, row block and column
    block. -/
theorem read_q (c : Dev nD) (t : Fin cfg1.N) (s' : Fin 1024) (l : Fin 128) (i : S4x2048x3072.Idx)
    (h0 : (i 0).val = win1_3.index t (0 : Fin 3)) (h1 : (i 1).val = win1_3.index t (1 : Fin 3) * 1024 + s'.val)
    (h2 : (i 2).val = win1_3.index t (2 : Fin 3) * 128 + l.val) :
    iblk1 V c 0 t (ix3 0 s' l) = V c main_v11 i := by
  obtain ⟨e0, e1, e2, -⟩ := idx_facts1 t
  show V c main_v11 (((cfg1.win 0).blk t).view.emb (ix3 0 s' l)) = V c main_v11 i
  refine congrArg (V c main_v11) (funext fun a => Fin.ext ?_)
  match a with
  | ⟨0, _⟩ => show win1_0.index t (0 : Fin 3) * 1 + 1 * 0 = (i 0).val; omega
  | ⟨1, _⟩ => show win1_0.index t (1 : Fin 3) * 1024 + 1 * s'.val = (i 1).val; omega
  | ⟨2, _⟩ => show win1_0.index t (2 : Fin 3) * 128 + 1 * l.val = (i 2).val; omega

/-- The key block at point t: all 2048 rows of the batch, 8 column blocks past the output's. -/
theorem read_k (c : Dev nD) (t : Fin cfg1.N) (k' : Fin 2048) (l : Fin 128) (i : S4x2048x3072.Idx)
    (h0 : (i 0).val = win1_3.index t (0 : Fin 3)) (h1 : (i 1).val = k'.val)
    (h2 : (i 2).val = (8 + win1_3.index t (2 : Fin 3)) * 128 + l.val) :
    iblk1 V c 1 t (ix3 0 k' l) = V c main_v11 i := by
  obtain ⟨-, -, -, e0, e1, e2, -⟩ := idx_facts1 t
  show V c main_v11 (((cfg1.win 1).blk t).view.emb (ix3 0 k' l)) = V c main_v11 i
  refine congrArg (V c main_v11) (funext fun a => Fin.ext ?_)
  match a with
  | ⟨0, _⟩ => show win1_1.index t (0 : Fin 3) * 1 + 1 * 0 = (i 0).val; omega
  | ⟨1, _⟩ => show win1_1.index t (1 : Fin 3) * 2048 + 1 * k'.val = (i 1).val; omega
  | ⟨2, _⟩ => show win1_1.index t (2 : Fin 3) * 128 + 1 * l.val = (i 2).val; omega

/-- The value block at point t: all 2048 rows of the batch, 16 column blocks past the output's. -/
theorem read_v (c : Dev nD) (t : Fin cfg1.N) (k' : Fin 2048) (l : Fin 128) (i : S4x2048x3072.Idx)
    (h0 : (i 0).val = win1_3.index t (0 : Fin 3)) (h1 : (i 1).val = k'.val)
    (h2 : (i 2).val = (16 + win1_3.index t (2 : Fin 3)) * 128 + l.val) :
    iblk1 V c 2 t (ix3 0 k' l) = V c main_v11 i := by
  obtain ⟨-, -, -, -, -, -, e0, e1, e2, -⟩ := idx_facts1 t
  show V c main_v11 (((cfg1.win 2).blk t).view.emb (ix3 0 k' l)) = V c main_v11 i
  refine congrArg (V c main_v11) (funext fun a => Fin.ext ?_)
  match a with
  | ⟨0, _⟩ => show win1_2.index t (0 : Fin 3) * 1 + 1 * 0 = (i 0).val; omega
  | ⟨1, _⟩ => show win1_2.index t (1 : Fin 3) * 2048 + 1 * k'.val = (i 1).val; omega
  | ⟨2, _⟩ => show win1_2.index t (2 : Fin 3) * 128 + 1 * l.val = (i 2).val; omega

/-! ## What a point writes back, the cover, and the array after the region -/

/-- What point t writes back is block t of the output function of the fused array as the region finds it. -/
theorem flushed1_3_eq (q : Fin cfg1.W → PosShare TreeShare) (c : Dev nD) (t : Fin cfg1.N) :
    (dat1 V q c).flushed 3 t = ((cfg1.win 3).blk t).view.read (Elt Ideal) (G1 (V c main_v11)) := by
  show (cfg1.win 3).cut (grid1.coords t) ((dat1 V q c).after 3 t) = _
  rw [after1_3]
  unfold out1_3
  rw [View.canon_unit_zero hz3]
  simp only [View.ld_unit_zero (S := S1x1024x128) hz3, View.ld_unit_zero (S := S1x2048x128) hz3]
  refine funext fun (j : S1x1024x128.Idx) => ?_
  obtain ⟨u, s', l, rfl⟩ : ∃ (u : Fin 1) (s' : Fin 1024) (l : Fin 128), j = ix3 u s' l := ⟨j 0, j 1, j 2, eq_ix3 j⟩
  obtain rfl : u = 0 := Subsingleton.elim _ _
  show k1_pay1 (k1_pay5 (iblk1 V c 0 t) (iblk1 V c 1 t) (iblk1 V c 2 t)) (k1_pay6 (iblk1 V c 2 t))
      (k1_pay7 (iblk1 V c 0 t) (iblk1 V c 1 t)) (ix3 0 s' l)
    = G1 (V c main_v11) (((cfg1.win 3).blk t).view.emb (ix3 0 s' l))
  refine attn_block_entry (V c main_v11) (iblk1 V c 0 t) (iblk1 V c 1 t) (iblk1 V c 2 t)
    (win1_3.index t (0 : Fin 3)) (win1_3.index t (1 : Fin 3)) (win1_3.index t (2 : Fin 3))
    (fun s' l i h0 h1 h2 => read_q V c t s' l i h0 h1 h2) (fun k' l i h0 h1 h2 => read_k V c t k' l i h0 h1 h2)
    (fun k' l i h0 h1 h2 => read_v V c t k' l i h0 h1 h2) s' l (((cfg1.win 3).blk t).view.emb (ix3 0 s' l)) ?_ ?_ ?_
  · show win1_3.index t (0 : Fin 3) * 1 + 1 * 0 = win1_3.index t (0 : Fin 3); omega
  · show win1_3.index t (1 : Fin 3) * 1024 + 1 * s'.val = win1_3.index t (1 : Fin 3) * 1024 + s'.val; omega
  · show win1_3.index t (2 : Fin 3) * 128 + 1 * l.val = win1_3.index t (2 : Fin 3) * 128 + l.val; omega

/-- An index of the output is in point t's block iff each coordinate is in the block's range on its axis. -/
theorem mem_blk1_3 (t : Fin cfg1.N) (i : S4x2048x1024.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v12).slice (win1_3.rect t)).set ↔ _
  rw [View.set_slice_whole, Rect.mem_set_unit]
  exact Iff.rfl

/-- Every entry (b, s, j) of the output is in the block of the point whose block index is (b, s / 1024, j / 128). -/
theorem covered1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto1 ⟨(i 0).val, hi0⟩ ⟨(i 1).val / 1024, by omega⟩ ⟨(i 2).val / 128, by omega⟩
  have q0 : win1_3.index t (0 : Fin 3) = (i 0).val := congrFun ht 0
  have q1 : win1_3.index t (1 : Fin 3) = (i 1).val / 1024 := congrFun ht 1
  have q2 : win1_3.index t (2 : Fin 3) = (i 2).val / 128 := congrFun ht 2
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The output array after the region is the output function of the fused array as the region finds it. -/
theorem final1_array (q : Fin cfg1.W → PosShare TreeShare) (c : Dev nD) :
    (dat1 V q c).arrAt 3 cfg1.N = G1 (V c main_v11) :=
  (dat1 V q c).arrAt_eq_of_cover 3 (G1 (V c main_v11)) (fun t _ => flushed1_3_eq V q c t) covered1_3

/-- Entry (b, s, 64·h + e) of the output after the region: head h's attention at query s, entry e, read off the fused
    array. -/
theorem final1 (q : Fin cfg1.W → PosShare TreeShare) (c : Dev nD) (b : Fin 4) (s : Fin 2048) (h : Fin 16) (e : Fin 64) :
    (dat1 V q c).arrAt 3 cfg1.N (ix3 b s (Cert.Attn.col h e)) = attnAt (V c main_v11) b s h e := by
  rw [final1_array V q c, G1_ix3, Cert.Attn.headOf_col, Cert.Attn.laneOf_col]

end Cert.KernelIdeal.Hand

end
-- ==== Proof.Pay2.lean ====
/-
  The output projection's block, read at an entry.

  The third call multiplies a block of 1024 merged rows by the last weight matrix [1024, 1024] into a zero accumulator and
  adds the bias row to every row: entry (p, f) of what is stored is the inner product of row p of the block with column f
  of the weights, plus the bias at f.
-/
import proofs.«162190_j88794153877525_2_alg».proof.Proof.Pay0

noncomputable section

namespace Cert.KernelIdeal.Pay

open Idealize.ShloMosaic Idealize.ShloMosaic.ValueIdx
open Cert.KernelIdeal Cert.KernelIdeal.Gen
open scoped BigOperators

/-- Entry (p, f) of the third call's stored block: row p of the merged block against column f of the last weights,
    plus the bias at f. -/
theorem pay2_apply (x : Vec Ideal S1024x1024 .bf16) (w : Vec Ideal S1024x1024 .bf16) (b : Vec Ideal S1x1024 .f32)
    (p f : Fin 1024) :
    k2_pay1 x w b (ix2 p f) = (∑ d : Fin 1024, x (ix2 p d) * w (ix2 d f)) + b (ix2 0 f) := by
  unfold k2_pay1
  refine (product_plus_row dot_S1024x1024_S1024x1024_S1024x1024_1_0_0_1_n_n rfl
    (shapeCast S1024x1024 x shapeCasts_S1024x1024_S1024x1024)
    (shapeCast S1024x1024 w shapeCasts_S1024x1024_S1024x1024)
    (shapeCast S1x1024 b shapeCasts_S1x1024_S1x1024) broadcasts_S1x1024_S1024x1024 p f).trans ?_
  rw [shapeCast_self x, shapeCast_self w, shapeCast_self b]

end Cert.KernelIdeal.Pay

end
-- ==== Proof.Final2Point.lean ====
/-
  What one grid point of the third call writes back.

  The call runs over 8 grid points. Point t fetches rows 1024·t … 1024·t + 1023 of the merged heads, the whole last
  weight matrix and the whole bias row, and writes back the product of the row block with the weights plus the bias
  row. That block is rows 1024·t … 1024·t + 1023 of ONE function of the three arrays: at (r, f) the inner product of
  row r of the merged heads with column f of the weights, plus the bias at f.
-/
import proofs.«162190_j88794153877525_2_alg».proof.Proof.Body2
import proofs.«162190_j88794153877525_2_alg».proof.Proof.Pay2
import Idealize.ShloMosaic.Lib.Pipeline.Value

noncomputable section

namespace Cert.KernelIdeal.Hand

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)
open scoped BigOperators

-- the buffer contents when the region is entered
variable (V : (c : Dev nD) → (b : Ref sig .tc) → Buf (Elt Ideal) ((c : Thread nD τ).loc b))

/-! ## The array as one function of the three input arrays -/

/-- Entry (r, n): row r of the merged heads against column n of the last weight matrix, plus the bias at n. -/
def G2 (A : Vec Ideal S8192x1024 .bf16) (W : Vec Ideal S1024x1024 .bf16) (B : Vec Ideal S1x1024 .f32) :
    Vec Ideal S8192x1024 .f32 :=
  fun i => (∑ d : Fin 1024, A (ix2 (n0 := 8192) ⟨(i 0).val, (i 0).isLt⟩ d) * W (ix2 (n1 := 1024) d ⟨(i 1).val, (i 1).isLt⟩))
    + B (ix2 (n0 := 1) (n1 := 1024) 0 ⟨(i 1).val, (i 1).isLt⟩)

theorem G2_apply (A : Vec Ideal S8192x1024 .bf16) (W : Vec Ideal S1024x1024 .bf16) (B : Vec Ideal S1x1024 .f32)
    (r : Fin 8192) (n : Fin 1024) :
    G2 A W B (ix2 r n) = (∑ d : Fin 1024, A (ix2 r d) * W (ix2 d n)) + B (ix2 0 n) := rfl

/-! ## One point's block -/

theorem lt8' (t : Fin cfg2.N) : t.val < 8 := lt_of_lt_of_eq t.isLt N_2

/-- Row p of point t's block is row 1024·t + p of the array. -/
def row2 (t : Fin cfg2.N) (p : Fin 1024) : Fin 8192 := ⟨t.val * 1024 + p.val, by have := lt8' t; omega⟩

/-- The block a point computes, entry by entry, when its three input blocks are the merged heads' rows from 1024·t on, the
    whole weights and the whole bias. -/
theorem block_entry2 (A : Vec Ideal S8192x1024 .bf16) (W : Vec Ideal S1024x1024 .bf16) (B : Vec Ideal S1x1024 .f32)
    (x0 : Vec Ideal S1024x1024 .bf16) (x1 : Vec Ideal S1024x1024 .bf16) (x2 : Vec Ideal S1x1024 .f32) (t : Fin cfg2.N)
    (h0 : ∀ p d : Fin 1024, x0 (ix2 p d) = A (ix2 (row2 t p) d))
    (h1 : ∀ (d : Fin 1024) (f : Fin 1024), x1 (ix2 d f) = W (ix2 d f))
    (h2 : ∀ f : Fin 1024, x2 (ix2 0 f) = B (ix2 0 f)) (p : Fin 1024) (f : Fin 1024) :
    k2_pay1 x0 x1 x2 (ix2 p f) = G2 A W B (ix2 (row2 t p) f) := by
  rw [pay2_apply, G2_apply, h2 f]
  exact congrArg (· + B (ix2 0 f)) (Finset.sum_congr rfl fun d _ => by rw [h0 p d, h1 d f])

theorem hz2 : (![0, 0] : Fin 2 → Nat) = fun _ => 0 := funext fun a => by fin_cases a <;> rfl

/-- The printed index maps over the grid: the merged heads' and the output's blocks move down one block row per point, the
    weights and the bias stay whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of the array's function of the entry contents. -/
theorem flushed2_eq (c : Dev nD) (t : Fin cfg2.N) :
    (dat2 (F := Ideal) V c).flushed 3 t
      = ((cfg2.win 3).blk t).view.read (Elt Ideal) (G2 (V c main_v13) (V c main_v7) (V c main_v14)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1024x1024) hz2, View.ld_unit_zero (S := S1x1024) hz2]
  obtain ⟨e00, e01, e10, e11, e20, e21, e30, e31⟩ := idx_facts2 t
  funext j
  obtain ⟨p, f, rfl⟩ : ∃ (p : Fin 1024) (f : Fin 1024), j = ix2 p f := ⟨j 0, j 1, eq_ix2 j⟩
  show k2_pay1 (iblk2 V c 0 t) (iblk2 V c 1 t) (iblk2 V c 2 t) (ix2 p f)
    = G2 (V c main_v13) (V c main_v7) (V c main_v14) (((cfg2.win 3).blk t).view.emb (ix2 p f))
  have hemb : ((cfg2.win 3).blk t).view.emb (ix2 p f) = ix2 (row2 t p) f := by
    funext a; apply Fin.ext
    match a with
    | ⟨0, _⟩ => show win2_3.index t (0 : Fin 2) * 1024 + 1 * p.val = t.val * 1024 + p.val; omega
    | ⟨1, _⟩ => show win2_3.index t (1 : Fin 2) * 1024 + 1 * f.val = f.val; omega
  rw [hemb]
  refine block_entry2 (V c main_v13) (V c main_v7) (V c main_v14) _ _ _ t (fun p d => ?_) (fun d f => ?_) (fun f => ?_) p f
  · show V c main_v13 (((cfg2.win 0).blk t).view.emb (ix2 p d)) = V c main_v13 (ix2 (row2 t p) d)
    refine congrArg (V c main_v13) (funext fun a => Fin.ext ?_)
    match a with
    | ⟨0, _⟩ => show win2_0.index t (0 : Fin 2) * 1024 + 1 * p.val = t.val * 1024 + p.val; omega
    | ⟨1, _⟩ => show win2_0.index t (1 : Fin 2) * 1024 + 1 * d.val = d.val; omega
  · show V c main_v7 (((cfg2.win 1).blk t).view.emb (ix2 d f)) = V c main_v7 (ix2 d f)
    refine congrArg (V c main_v7) (funext fun a => Fin.ext ?_)
    match a with
    | ⟨0, _⟩ => show win2_1.index t (0 : Fin 2) * 1024 + 1 * d.val = d.val; omega
    | ⟨1, _⟩ => show win2_1.index t (1 : Fin 2) * 1024 + 1 * f.val = f.val; omega
  · show V c main_v14 (((cfg2.win 2).blk t).view.emb (ix2 (0 : Fin 1) f)) = V c main_v14 (ix2 (0 : Fin 1) f)
    refine congrArg (V c main_v14) (funext fun a => Fin.ext ?_)
    match a with
    | ⟨0, _⟩ => show win2_2.index t (0 : Fin 2) * 1 + 1 * (0 : Fin 1).val = (0 : Fin 1).val; omega
    | ⟨1, _⟩ => show win2_2.index t (1 : Fin 2) * 1024 + 1 * f.val = f.val; omega

end Cert.KernelIdeal.Hand

end
-- ==== Proof.Final2.lean ====
/-
  The output projection's array after the third call.

  Point t of the 8 writes back rows 1024·t … 1024·t + 1023 of the output. Row r is in the block of point r / 1024, so
  the blocks fill the array, and it ends holding, at (r, f), the inner product of row r of the merged heads with column
  f of the last weight matrix, plus the bias at f.
-/
import proofs.«162190_j88794153877525_2_alg».proof.Proof.Final2Point
import Idealize.ShloMosaic.Lib.Pipeline.Value

noncomputable section

namespace Cert.KernelIdeal.Hand

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)
open scoped BigOperators

-- the buffer contents when the region is entered
variable (V : (c : Dev nD) → (b : Ref sig .tc) → Buf (Elt Ideal) ((c : Thread nD τ).loc b))

/-! ## The blocks fill the array -/

/-- An index of the array is in point t's block iff each coordinate is in the block's range on its axis. -/
theorem mem_blk2 (t : Fin cfg2.N) (i : S8192x1024.Idx) :
    i ∈ ((cfg2.win 3).blk t).view.set
      ↔ ∀ a : Fin 2, win2_3.index t a * S1024x1024.size a ≤ (i a).val ∧ (i a).val < win2_3.index t a * S1024x1024.size a + S1024x1024.size a := by
  show i ∈ ((View.whole main_v15).slice (win2_3.rect t)).set ↔ _
  rw [View.set_slice_whole, Rect.mem_set_unit]
  exact Iff.rfl

/-- Every entry of the array is in the block of the point its row belongs to. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  let t : Fin cfg2.N := ⟨(i 0).val / 1024, lt_of_lt_of_eq (by omega) N_2.symm⟩
  obtain ⟨-, -, -, -, -, -, e30, e31⟩ := idx_facts2 t
  have ht : t.val = (i 0).val / 1024 := rfl
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-! ## The whole array -/

/-- THE ARRAY after the call: the product of the merged heads with the last weight matrix plus the bias row, entry by entry. -/
theorem final2_array (c : Dev nD) :
    (dat2 (F := Ideal) V c).arrAt 3 cfg2.N = G2 (V c main_v13) (V c main_v7) (V c main_v14) :=
  (dat2 (F := Ideal) V c).arrAt_eq_of_cover 3 (G2 (V c main_v13) (V c main_v7) (V c main_v14))
    (fun t _ => flushed2_eq V c t) cover2

/-- The same at an entry (r, n), the three arrays the region finds named A, W and B. -/
theorem final2 (c : Dev nD) (A : Vec Ideal S8192x1024 .bf16) (W : Vec Ideal S1024x1024 .bf16) (B : Vec Ideal S1x1024 .f32)
    (hA : V c main_v13 = A) (hW : V c main_v7 = W) (hB : V c main_v14 = B) (r : Fin 8192) (n : Fin 1024) :
    (dat2 (F := Ideal) V c).arrAt 3 cfg2.N (ix2 r n) = (∑ d : Fin 1024, A (ix2 r d) * W (ix2 d n)) + B (ix2 0 n) := by
  subst hA hW hB
  exact (congrFun (final2_array V c) (ix2 r n)).trans (G2_apply _ _ _ r n)

end Cert.KernelIdeal.Hand

end
-- ==== Proof.LibScaledMax.lean ====
/-
  Scaling a row maximum of inner products by a nonnegative factor, on the extended reals.

  For a factor `c` with `0 ≤ c` and `c ≠ ⊤`, multiplication by `c` distributes over every finite sum of extended
  reals (no finiteness of the summands is needed) and is monotone, so it commutes with a maximum taken over a
  nonempty finite index set, also when that maximum is folded from `⊥`.  Together:
      (max_j ∑_k a_k · b_{j,k}) · c = max_j ∑_k (a_k · c) · b_{j,k}.
-/
import Mathlib.Data.EReal.Basic
import Mathlib.Data.EReal.Operations
import Mathlib.Data.EReal.Inv
import Mathlib.Data.Finset.Fold
import Mathlib.Algebra.BigOperators.Group.Finset.Basic

noncomputable section

namespace Cert.LibScaledMax

open Finset

/-- A nonnegative factor other than `⊤` distributes over a finite sum of extended reals. -/
theorem sum_mul_of_nonneg {K : Type*} (s : Finset K) (t : K → EReal) {c : EReal} (hc : 0 ≤ c) (hc' : c ≠ ⊤) :
    (∑ k ∈ s, t k) * c = ∑ k ∈ s, t k * c := by
  classical
  induction s using Finset.induction_on with
  | empty => simp
  | insert a s ha ih =>
    rw [Finset.sum_insert ha, Finset.sum_insert ha, EReal.right_distrib_of_nonneg_of_ne_top hc hc', ih]

/-- Scaling the left factors of an inner product scales the inner product. -/
theorem inner_scaled {K : Type*} [Fintype K] (a b : K → EReal) {c : EReal} (hc : 0 ≤ c) (hc' : c ≠ ⊤) :
    ∑ k, (a k * c) * b k = (∑ k, a k * b k) * c := by
  rw [sum_mul_of_nonneg _ _ hc hc']
  exact Finset.sum_congr rfl fun k _ => mul_right_comm _ _ _

/-- A maximum folded from `b` is the maximum of `b` and the one folded from `⊥`: when some entry dominates `b`,
    the starting value does not matter. -/
theorem fold_max_start {J : Type*} (s : Finset J) (g : J → EReal) (b : EReal) (j₀ : J) (hj₀ : j₀ ∈ s) (hb : b ≤ g j₀) :
    s.fold max b g = s.fold max ⊥ g := by
  refine eq_of_forall_ge_iff fun d => ?_
  rw [Finset.fold_max_le, Finset.fold_max_le]
  exact ⟨fun h => ⟨bot_le, h.2⟩, fun h => ⟨hb.trans (h.2 j₀ hj₀), h.2⟩⟩

/-- Multiplication by a nonnegative factor commutes with a maximum over a nonempty finite index set folded from `⊥`. -/
theorem fold_max_mul {J : Type*} [Fintype J] [Nonempty J] (f : J → EReal) {c : EReal} (hc : 0 ≤ c) :
    (univ.fold max ⊥ f) * c = univ.fold max ⊥ fun j => f j * c := by
  have hmono : Monotone fun x : EReal => x * c := fun x y h => mul_le_mul_of_nonneg_right h hc
  have hm : ∀ x y : EReal, max x y * c = max (x * c) (y * c) := fun x y => hmono.map_max
  rw [← Finset.fold_hom (op := max) (op' := max) (m := fun x : EReal => x * c) hm]
  obtain ⟨j₀⟩ := ‹Nonempty J›
  exact fold_max_start _ _ _ j₀ (mem_univ _) (hmono bot_le)

/-- THE LAW: scaling a row maximum of inner products by `c` is the row maximum of the inner products of the scaled row. -/
theorem rowmax_scaled {J K : Type*} [Fintype J] [Nonempty J] [Fintype K] (a : K → EReal) (b : J → K → EReal)
    {c : EReal} (hc : 0 ≤ c) (hc' : c ≠ ⊤) :
    (univ.fold max ⊥ fun j => ∑ k, a k * b j k) * c = univ.fold max ⊥ fun j => ∑ k, (a k * c) * b j k := by
  rw [fold_max_mul _ hc]
  exact congrArg (fun f => univ.fold max ⊥ f) (funext fun j => (inner_scaled a (b j) hc hc').symm)

end Cert.LibScaledMax

end
-- ==== Proof.KValue.lean ====
/-
  The idealized kernel's result is multi-head attention: the last contents of the result array, read through the three
  regions and the host operations between them, is the specification's function of the argument arrays.

  The fused projection's row 2048·b + s, column 1024·g + o, is row (b, s) of the input against row o of matrix g (its
  bias is zero); so the three column bands of the fused array are the query, key and value projections. The attention
  region's entry for head h, lane e is the softmax-weighted sum of value rows, its scores the inner products of query and
  key rows scaled AFTER the sum by 1/8 — the specification scales each query entry before the sum; a nonnegative finite
  factor moves across a finite sum of extended reals, so the two agree. The last region is the output projection.
-/
import proofs.«162190_j88794153877525_2_alg».proof.Proof.RunMain
import proofs.«162190_j88794153877525_2_alg».proof.Proof.HostGlue
import proofs.«162190_j88794153877525_2_alg».proof.Proof.Final0
import proofs.«162190_j88794153877525_2_alg».proof.Proof.Final1
import proofs.«162190_j88794153877525_2_alg».proof.Proof.Final2
import proofs.«162190_j88794153877525_2_alg».proof.Proof.LibScaledMax
import proofs.«162190_j88794153877525_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn
open scoped BigOperators

/-! ## The scale -/

theorem eighth_eq : Cert.Attn.eighth = (((1 : ℝ) / 8 : ℝ) : EReal) := by
  simp [Cert.Attn.eighth, Ideal.ofBits, Ideal.ieee]
  norm_cast; norm_num

theorem eighth_nonneg : (0 : EReal) ≤ Cert.Attn.eighth := by
  rw [eighth_eq]; exact_mod_cast (by norm_num : (0 : ℝ) ≤ 1 / 8)

theorem eighth_ne_top : Cert.Attn.eighth ≠ ⊤ := by
  rw [eighth_eq]; exact EReal.coe_ne_top _

/-! ## Attention over a fused array whose three column bands are the projections -/

/-- If the three column bands of a fused array are the query, key and value projections of the input, its attention
    entry for head h, lane e is the specification's head output: the scale moves across the inner product. -/
theorem attn_head (A : S4x2048x3072.Idx → Elt Ideal .bf16) (X : SX.Idx → EReal) (Wq Wk Wv : SW.Idx → EReal)
    (hq : ∀ (b : Fin 4) (s : Fin 2048) (h : Fin 16) (e : Fin 64), A (ix3 b s (qcol h e)) = proj X Wq b s (col h e))
    (hk : ∀ (b : Fin 4) (s : Fin 2048) (h : Fin 16) (e : Fin 64), A (ix3 b s (kcol h e)) = proj X Wk b s (col h e))
    (hv : ∀ (b : Fin 4) (s : Fin 2048) (h : Fin 16) (e : Fin 64), A (ix3 b s (vcol h e)) = proj X Wv b s (col h e))
    (b : Fin 4) (s : Fin 2048) (h : Fin 16) (e : Fin 64) :
    attnAt A b s h e = head X Wq Wk Wv b h s e := by
  rw [attnAt_def]
  unfold Cert.Attn.head Cert.Attn.weight
  refine Finset.sum_congr rfl fun kk _ => ?_
  rw [hv]
  refine congrArg (fun l : Fin 2048 → EReal => Cert.DenseRows.softmax l kk * proj X Wv b kk (col h e)) (funext fun k' => ?_)
  unfold Cert.Attn.score
  rw [show (∑ e' : Fin 64, A (ix3 b s (qcol h e')) * A (ix3 b k' (kcol h e')))
      = ∑ e' : Fin 64, proj X Wq b s (col h e') * proj X Wk b k' (col h e') from
    Finset.sum_congr rfl fun e' _ => by rw [hq, hk]]
  exact (Cert.LibScaledMax.inner_scaled _ _ eighth_nonneg eighth_ne_top).symm

/-! ## The regions' outputs in the run -/

variable (m : (ℓ : Loc nD τ sig) → Buf (Elt Ideal) ℓ) (ρ : Dev nD → PrngReg) (c : Dev nD)

/-- Row 2048·b + s of an [8192, ·] matrix. -/
def rowOf (b : Fin 4) (s : Fin 2048) : Fin 8192 := ⟨b.val * 2048 + s.val, by omega⟩

/-- The fused projections: entry (b, s, 1024·g + o) is row (b, s) of the input against row o of matrix g. -/
theorem fused (b : Fin 4) (s : Fin 2048) (g : Fin 3) (o : Fin 1024) (n : Fin 3072) (hn : n.val = g.val * 1024 + o.val) :
    (atTc (W3 m ρ) c main_v11 : S4x2048x3072.Idx → Elt Ideal .bf16) (ix3 b s n)
      = proj (m ((c.tc : Thread nD τ).loc main_arg0))
          (![m ((c.tc : Thread nD τ).loc main_arg1), m ((c.tc : Thread nD τ).loc main_arg2), m ((c.tc : Thread nD τ).loc main_arg3)] g) b s o := by
  refine (split_projections m ρ c b s n (rowOf b s) rfl).trans ?_
  show (W2 m ρ c (Proc.devRef .tc main_v10) : S8192x3072.Idx → Elt Ideal .bf16) (ix2 (rowOf b s) n) = _
  rw [W2_out m ρ c]
  have h0 := final0 (atTc (W1 m ρ)) c _ _ _ rfl rfl rfl (rowOf b s) n
  refine h0.trans ?_
  rw [zero_bias m ρ c n, add_zero]
  unfold Cert.Attn.proj
  show (_ : EReal) = (_ : EReal)
  exact Finset.sum_congr rfl fun d _ => by rw [merged_input m ρ c b s d (rowOf b s) rfl, joined_weights m ρ c d g o n hn]

/-- The attention output: entry (b, s, 64·h + e) is the specification's head output. -/
theorem attention (b : Fin 4) (s : Fin 2048) (d : Fin 1024) :
    (atTc (W4 m ρ) c main_v12 : S4x2048x1024.Idx → Elt Ideal .bf16) (ix3 b s d)
      = merged (m ((c.tc : Thread nD τ).loc main_arg0)) (m ((c.tc : Thread nD τ).loc main_arg1)) (m ((c.tc : Thread nD τ).loc main_arg2))
          (m ((c.tc : Thread nD τ).loc main_arg3)) b s d := by
  show (W4 m ρ c (Proc.devRef .tc main_v12) : S4x2048x1024.Idx → Elt Ideal .bf16) (ix3 b s d) = _
  rw [W4_out m ρ c]
  unfold Cert.Attn.merged
  conv_lhs => rw [← col_headOf_laneOf d]
  have h1 := final1 (atTc (W3 m ρ)) q1 c b s (headOf d) (laneOf d)
  refine h1.trans ?_
  exact attn_head _ _ _ _ _
    (fun b s h e => fused m ρ c b s 0 (col h e) (qcol h e) (by simp [qcol]))
    (fun b s h e => fused m ρ c b s 1 (col h e) (kcol h e) (by simp [kcol]))
    (fun b s h e => fused m ρ c b s 2 (col h e) (vcol h e) (by simp [vcol])) b s (headOf d) (laneOf d)

/-- THE KERNEL'S VALUE: the result array's last contents is the specification of the argument arrays. -/
theorem kernel_value :
    (W7 m ρ c (Proc.devRef .tc main_v16) : S4x2048x1024.Idx → EReal)
      = Cert.Attn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext i
  obtain ⟨b, s, o, rfl⟩ : ∃ (b : Fin 4) (s : Fin 2048) (o : Fin 1024), i = ix3 b s o := ⟨i 0, i 1, i 2, eq_ix3 i⟩
  rw [out_ix3]
  refine (split_result m ρ c b s o (rowOf b s) rfl).trans ?_
  show (W6 m ρ c (Proc.devRef .tc main_v15) : S8192x1024.Idx → Elt Ideal .f32) (ix2 (rowOf b s) o) = _
  rw [W6_out m ρ c]
  have h2 := final2 (atTc (W5 m ρ)) c _ _ _ rfl rfl rfl (rowOf b s) o
  refine h2.trans ?_
  unfold Cert.Attn.outAt
  rw [bias_row m ρ c o]
  show (_ : EReal) = (_ : EReal)
  refine congrArg (· + _) (Finset.sum_congr rfl fun d _ => ?_)
  rw [merged_heads m ρ c b s d (rowOf b s) rfl, last_weights_kept m ρ c d o, attention m ρ c b s d]

/-- THE RUN WITH ITS VALUE: every weakly fair execution terminates with the result array at the specification of the
    argument arrays and every argument array as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
          = Cert.Attn.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v16 (by decide))).trans (kernel_value m ρ c),
     (h c _ (mem_uc main_arg0 (by decide))).trans (W7_kept m ρ c main_arg0 (by decide) (by decide) (by decide) (by decide) (by decide) (by decide) (by decide)),
     (h c _ (mem_uc main_arg1 (by decide))).trans (W7_kept m ρ c main_arg1 (by decide) (by decide) (by decide) (by decide) (by decide) (by decide) (by decide)),
     (h c _ (mem_uc main_arg2 (by decide))).trans (W7_kept m ρ c main_arg2 (by decide) (by decide) (by decide) (by decide) (by decide) (by decide) (by decide)),
     (h c _ (mem_uc main_arg3 (by decide))).trans (W7_kept m ρ c main_arg3 (by decide) (by decide) (by decide) (by decide) (by decide) (by decide) (by decide)),
     (h c _ (mem_uc main_arg4 (by decide))).trans (W7_kept m ρ c main_arg4 (by decide) (by decide) (by decide) (by decide) (by decide) (by decide) (by decide)),
     (h c _ (mem_uc main_arg5 (by decide))).trans (W7_kept m ρ c main_arg5 (by decide) (by decide) (by decide) (by decide) (by decide) (by decide) (by decide))⟩)
    (run_main (F := Ideal) m ρ)

end Cert.KernelIdeal.Hand

end
-- ==== Proof.RefSpecScores.lean ====
/-
  The reference program's projections and scores are the specification's.

  The program projects X three times (a row of X against the rows of a weight matrix), views each projected
  [4, 2048, 1024] array as [4, 2048, 16, 64] and swaps the two middle axes: entry (b, h, s, e) of the result is column
  64·h + e of projected row (b, s).  It scales the queries by 1/8 and takes, for each (b, h), the inner products of
  query rows with key rows over the 64 entries of the head.  Each stage is read at an index with literal coordinates.
-/
import proofs.«162190_j88794153877525_2_alg».proof.Proof.Gen.ReferenceIdeal.Read
import proofs.«162190_j88794153877525_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.ValueIdx Cert.Attn
open scoped BigOperators

/-- The contents of an input array, of a weight matrix and of the bias. -/
abbrev TX : Type := (⟨S4x2048x1024, .f32⟩ : BufTy).Contents (Elt Ideal)
abbrev TW : Type := (⟨S1024x1024, .f32⟩ : BufTy).Contents (Elt Ideal)
abbrev TB : Type := (⟨S1024, .f32⟩ : BufTy).Contents (Elt Ideal)

/-! ## The three projections, and their rows cut into heads -/

/-- Position ((b·2048 + s)·16 + h)·64 + e of the flat array is row b·2048 + s, column 64·h + e. -/
theorem split_arith (b s h e : ℕ) (hb : b < 4) (hs : s < 2048) (hh : h < 16) (he : e < 64) :
    (((b * 2048 + s) * 16 + h) * 64 + e) / 2097152 = b
      ∧ (((b * 2048 + s) * 16 + h) * 64 + e) / 1024 % 2048 = s
      ∧ (((b * 2048 + s) * 16 + h) * 64 + e) % 1024 = h * 64 + e := by
  omega

/-- The query projection at (b, s, o): row (b, s) of X against row o of the first matrix. -/
theorem q_row (x0 : TX) (x1 : TW) (b : Fin 4) (s : Fin 2048) (o : Fin 1024) :
    val_main_v0 (F := Ideal) x0 x1 (ix3 b s o) = proj x0 x1 b s o := by
  have hl : ∀ d : Fin 1024, lidx_main_v0 (ix3 b s o) d = ix3 b s d := fun d => funext fun a => by
    match a with | ⟨0, _⟩ => rfl | ⟨1, _⟩ => rfl | ⟨2, _⟩ => rfl
  have hr : ∀ d : Fin 1024, ridx_main_v0 (ix3 b s o) d = ix2 o d := fun d => funext fun a => by
    match a with | ⟨0, _⟩ => rfl | ⟨1, _⟩ => rfl
  rw [val_main_v0_apply]
  unfold proj
  exact Finset.sum_congr rfl fun d _ => by rw [hl d, hr d]

/-- The key projection at (b, s, o). -/
theorem k_row (x0 : TX) (x2 : TW) (b : Fin 4) (s : Fin 2048) (o : Fin 1024) :
    val_main_v3 (F := Ideal) x0 x2 (ix3 b s o) = proj x0 x2 b s o := by
  have hl : ∀ d : Fin 1024, lidx_main_v3 (ix3 b s o) d = ix3 b s d := fun d => funext fun a => by
    match a with | ⟨0, _⟩ => rfl | ⟨1, _⟩ => rfl | ⟨2, _⟩ => rfl
  have hr : ∀ d : Fin 1024, ridx_main_v3 (ix3 b s o) d = ix2 o d := fun d => funext fun a => by
    match a with | ⟨0, _⟩ => rfl | ⟨1, _⟩ => rfl
  rw [val_main_v3_apply]
  unfold proj
  exact Finset.sum_congr rfl fun d _ => by rw [hl d, hr d]

/-- The value projection at (b, s, o). -/
theorem v_row (x0 : TX) (x3 : TW) (b : Fin 4) (s : Fin 2048) (o : Fin 1024) :
    val_main_v6 (F := Ideal) x0 x3 (ix3 b s o) = proj x0 x3 b s o := by
  have hl : ∀ d : Fin 1024, lidx_main_v6 (ix3 b s o) d = ix3 b s d := fun d => funext fun a => by
    match a with | ⟨0, _⟩ => rfl | ⟨1, _⟩ => rfl | ⟨2, _⟩ => rfl
  have hr : ∀ d : Fin 1024, ridx_main_v6 (ix3 b s o) d = ix2 o d := fun d => funext fun a => by
    match a with | ⟨0, _⟩ => rfl | ⟨1, _⟩ => rfl
  rw [val_main_v6_apply]
  unfold proj
  exact Finset.sum_congr rfl fun d _ => by rw [hl d, hr d]

/-- Entry (b, h, s, e) of the queries cut into heads sits at (b, s, 64·h + e) of the projection. -/
theorem q_heads_idx (b : Fin 4) (h : Fin 16) (s : Fin 2048) (e : Fin 64) :
    idx_main_v1 (idx_main_v2 (ix4 b h s e)) = ix3 b s (col h e) := by
  obtain ⟨h0, h1, h2⟩ := split_arith b.val s.val h.val e.val b.isLt s.isLt h.isLt e.isLt
  funext a
  apply Fin.ext
  match a with
  | ⟨0, _⟩ => exact h0
  | ⟨1, _⟩ => exact h1
  | ⟨2, _⟩ => exact h2

/-- The same for the keys … -/
theorem k_heads_idx (b : Fin 4) (h : Fin 16) (s : Fin 2048) (e : Fin 64) :
    idx_main_v4 (idx_main_v5 (ix4 b h s e)) = ix3 b s (col h e) := by
  obtain ⟨h0, h1, h2⟩ := split_arith b.val s.val h.val e.val b.isLt s.isLt h.isLt e.isLt
  funext a
  apply Fin.ext
  match a with
  | ⟨0, _⟩ => exact h0
  | ⟨1, _⟩ => exact h1
  | ⟨2, _⟩ => exact h2

/-- … and for the values. -/
theorem v_heads_idx (b : Fin 4) (h : Fin 16) (s : Fin 2048) (e : Fin 64) :
    idx_main_v7 (idx_main_v8 (ix4 b h s e)) = ix3 b s (col h e) := by
  obtain ⟨h0, h1, h2⟩ := split_arith b.val s.val h.val e.val b.isLt s.isLt h.isLt e.isLt
  funext a
  apply Fin.ext
  match a with
  | ⟨0, _⟩ => exact h0
  | ⟨1, _⟩ => exact h1
  | ⟨2, _⟩ => exact h2

/-- Entry e of head h of the query at position s of batch b. -/
theorem q_head (x0 : TX) (x1 : TW) (b : Fin 4) (h : Fin 16) (s : Fin 2048) (e : Fin 64) :
    val_main_v2 (F := Ideal) x0 x1 (ix4 b h s e) = proj x0 x1 b s (col h e) := by
  rw [val_main_v2_apply, val_main_v1_apply, q_heads_idx, q_row]

/-- Entry e of head h of the key at position s of batch b. -/
theorem k_head (x0 : TX) (x2 : TW) (b : Fin 4) (h : Fin 16) (s : Fin 2048) (e : Fin 64) :
    val_main_v5 (F := Ideal) x0 x2 (ix4 b h s e) = proj x0 x2 b s (col h e) := by
  rw [val_main_v5_apply, val_main_v4_apply, k_heads_idx, k_row]

/-- Entry e of head h of the value at position s of batch b. -/
theorem v_head (x0 : TX) (x3 : TW) (b : Fin 4) (h : Fin 16) (s : Fin 2048) (e : Fin 64) :
    val_main_v8 (F := Ideal) x0 x3 (ix4 b h s e) = proj x0 x3 b s (col h e) := by
  rw [val_main_v8_apply, val_main_v7_apply, v_heads_idx, v_row]

/-! ## The scores -/

/-- The scaled query entry. -/
theorem q_scaled (x0 : TX) (x1 : TW) (b : Fin 4) (h : Fin 16) (s : Fin 2048) (e : Fin 64) :
    val_main_v10 (F := Ideal) x0 x1 (ix4 b h s e) = proj x0 x1 b s (col h e) * eighth := by
  rw [val_main_v10_apply, q_head, val_main_v9_apply, val_main_cst_apply]
  rfl

/-- The score of key k for query s in head h of batch b. -/
theorem scores (x0 : TX) (x1 x2 : TW) (b : Fin 4) (h : Fin 16) (s k : Fin 2048) :
    val_main_v11 (F := Ideal) x0 x1 x2 (ix4 b h s k) = score x0 x1 x2 b h s k := by
  have hl : ∀ e : Fin 64, lidx_main_v11 (ix4 b h s k) e = ix4 b h s e := fun e => funext fun a => by
    match a with | ⟨0, _⟩ => rfl | ⟨1, _⟩ => rfl | ⟨2, _⟩ => rfl | ⟨3, _⟩ => rfl
  have hr : ∀ e : Fin 64, ridx_main_v11 (ix4 b h s k) e = ix4 b h k e := fun e => funext fun a => by
    match a with | ⟨0, _⟩ => rfl | ⟨1, _⟩ => rfl | ⟨2, _⟩ => rfl | ⟨3, _⟩ => rfl
  rw [val_main_v11_apply]
  unfold score
  exact Finset.sum_congr rfl fun e _ => by rw [hl e, hr e, q_scaled, k_head]

end Cert.ReferenceIdeal.RefValue

end
-- ==== Proof.RefSpecLayout.lean ====
/-
  Where the reference program's layout operations and row reductions read.

  A reduction along the key axis of the [4, 16, 2048, 2048] scores reads, at row (b, h, s), the entries (b, h, s, k);
  from the −∞ word the maximum reduction is the supremum of the row.  A row's maximum or sum, given a unit last axis
  and spread back over the row, is read at the row's index.  Laying the heads side by side again puts entry d % 64 of
  head d / 64 in column d.  The bias, spread over batch and position, is read at the column.
-/
import proofs.«162190_j88794153877525_2_alg».proof.Proof.Gen.ReferenceIdeal.Read
import proofs.«162190_j88794153877525_2_alg».proof.Proof.Spec
import proofs.«162190_j88794153877525_2_alg».proof.Proof.LibExtremeReduce

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.ValueIdx Cert.Attn
open scoped BigOperators

/-! ## Reductions along the key axis -/

/-- The scores array loses its last axis under the row reductions. -/
theorem reduces_keys : S4x16x2048x2048.Reduces [3] S4x16x2048 := by decide

/-- Putting coordinate k back on the last axis of the row index (p, q, r) gives (p, q, r, k). -/
theorem lift_ix3 {a b c d : ℕ} (h : (⟨4, ![a, b, c, d]⟩ : Shape).Reduces [3] ⟨3, ![a, b, c]⟩)
    (p : Fin a) (q : Fin b) (r : Fin c) (k : Fin d) : h.lift (ix3 p q r) k = ix4 p q r k := by
  funext ax
  apply Fin.ext
  match ax with
  | ⟨0, _⟩ => rfl
  | ⟨1, _⟩ => rfl
  | ⟨2, _⟩ => rfl
  | ⟨3, _⟩ => rfl

/-- The maximum reduction along the key axis from the −∞ word, at row (b, h, s): the supremum of the row. -/
theorem key_max (y : (⟨S4x16x2048x2048, .f32⟩ : BufTy).Contents (Elt Ideal)) (b : Fin 4) (h : Fin 16) (s : Fin 2048) :
    Host.reduce FloatOps.maximumf y (constant (F := Ideal) S_ .f32 0xFF800000#32)
        reducesTo_S4x16x2048x2048_S4x16x2048_d3 h_S_ (ix3 b h s)
      = ⨆ k : Fin 2048, y (ix4 b h s k) :=
  (ExtremeReduce.hostReduce_max_single y reducesTo_S4x16x2048x2048_S4x16x2048_d3 reduces_keys h_S_ (ix3 b h s)).trans
    (iSup_congr fun k => congrArg y (lift_ix3 reduces_keys b h s k))

/-! ## Rows spread back -/

/-- The row maximum spread back over the row is read at the row's index. -/
theorem max_row_idx (b : Fin 4) (h : Fin 16) (s k : Fin 2048) :
    idx_main_v15 (idx_main_v16 (ix4 b h s k)) = ix3 b h s := by
  funext a
  match a with
  | ⟨0, _⟩ => rfl
  | ⟨1, _⟩ => rfl
  | ⟨2, _⟩ => rfl

/-- The row sum spread back over the row is read at the row's index. -/
theorem sum_row_idx (b : Fin 4) (h : Fin 16) (s k : Fin 2048) :
    idx_main_v20 (idx_main_v21 (ix4 b h s k)) = ix3 b h s := by
  funext a
  match a with
  | ⟨0, _⟩ => rfl
  | ⟨1, _⟩ => rfl
  | ⟨2, _⟩ => rfl

/-! ## The heads side by side again, and the bias -/

/-- Position (b·2048 + s)·1024 + d of the flat array is row b·2048 + s, head d / 64, entry d % 64. -/
theorem merge_arith (b s d : ℕ) (hb : b < 4) (hs : s < 2048) (hd : d < 1024) :
    ((b * 2048 + s) * 1024 + d) / 2097152 = b
      ∧ ((b * 2048 + s) * 1024 + d) / 1024 % 2048 = s
      ∧ ((b * 2048 + s) * 1024 + d) / 64 % 16 = d / 64
      ∧ ((b * 2048 + s) * 1024 + d) % 64 = d % 64 := by
  omega

/-- Column d of the merged row (b, s) is entry d % 64 of head d / 64 at position s. -/
theorem merge_idx (b : Fin 4) (s : Fin 2048) (d : Fin 1024) :
    idx_main_v24 (idx_main_v25 (ix3 b s d)) = ix4 b (headOf d) s (laneOf d) := by
  obtain ⟨h0, h1, h2, h3⟩ := merge_arith b.val s.val d.val b.isLt s.isLt d.isLt
  funext a
  apply Fin.ext
  match a with
  | ⟨0, _⟩ => exact h0
  | ⟨1, _⟩ => exact h2
  | ⟨2, _⟩ => exact h1
  | ⟨3, _⟩ => exact h3

/-- The bias spread over the rows is read at the column. -/
theorem bias_idx (b : Fin 4) (s : Fin 2048) (o : Fin 1024) : idx_main_v27 (idx_main_v28 (ix3 b s o)) = ix1 o := by
  funext a
  match a with
  | ⟨0, _⟩ => rfl

end Cert.ReferenceIdeal.RefValue

end
-- ==== Proof.RefSpec.lean ====
/-
  The reference program computes the attention specification.

  On the scores of each (b, h) the program applies a softmax along the key axis: the row maximum (a supremum, taken
  once more against −∞), the exponentials of the shifted scores, their sum from zero, the quotient.  The weights
  multiply the value rows, the heads are laid side by side again (column d of row (b, s) is entry d % 64 of head d / 64)
  and the last matrix and the bias are applied.  Each stage is read at an index with literal coordinates and
  identified with the specification's function of the same name; the last one is the specification's result.
-/
import proofs.«162190_j88794153877525_2_alg».proof.Proof.RefSpecScores
import proofs.«162190_j88794153877525_2_alg».proof.Proof.RefSpecLayout

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.ValueIdx Cert.Attn
open scoped BigOperators

/-! ## The softmax along the key axis -/

/-- The row maximum of the scores, taken once more against −∞. -/
theorem row_max (x0 : TX) (x1 x2 : TW) (b : Fin 4) (h : Fin 16) (s : Fin 2048) :
    val_main_v14 (F := Ideal) x0 x1 x2 (ix3 b h s) = max ⊥ (⨆ k : Fin 2048, score x0 x1 x2 b h s k) := by
  rw [val_main_v14_apply, val_main_v13_apply, val_main_cst_1_apply]
  unfold val_main_v12 val_main_cst_0
  rw [key_max]
  show max (Ideal.ofBits .f32 0xFF800000#32) _ = _
  rw [ExtremeReduce.ofBits_negInf]
  exact congrArg (max ⊥) (iSup_congr fun k => scores x0 x1 x2 b h s k)

/-- The exponential of the shifted score. -/
theorem shifted_exp (x0 : TX) (x1 x2 : TW) (b : Fin 4) (h : Fin 16) (s k : Fin 2048) :
    val_main_v18 (F := Ideal) x0 x1 x2 (ix4 b h s k)
      = Ideal.exp (score x0 x1 x2 b h s k - max ⊥ (⨆ k' : Fin 2048, score x0 x1 x2 b h s k')) := by
  rw [val_main_v18_apply, val_main_v17_apply, val_main_v16_apply, val_main_v15_apply, max_row_idx, row_max, scores]
  rfl

/-- The sum of a row's exponentials, from the zero word. -/
theorem row_sum (x0 : TX) (x1 x2 : TW) (b : Fin 4) (h : Fin 16) (s : Fin 2048) :
    val_main_v19 (F := Ideal) x0 x1 x2 (ix3 b h s)
      = ∑ k : Fin 2048, Ideal.exp (score x0 x1 x2 b h s k - max ⊥ (⨆ k' : Fin 2048, score x0 x1 x2 b h s k')) := by
  have hi : ∀ k : Fin 2048, idx_main_v19 (ix3 b h s) k = ix4 b h s k := fun k => funext fun a => by
    match a with | ⟨0, _⟩ => rfl | ⟨1, _⟩ => rfl | ⟨2, _⟩ => rfl | ⟨3, _⟩ => rfl
  rw [val_main_v19_apply, val_main_cst_2_apply]
  show Ideal.ofBits .f32 0x00000000#32 + _ = _
  rw [Ideal.ofBits_zero_f32, zero_add]
  exact Finset.sum_congr rfl fun k _ => by rw [hi k, shifted_exp]

/-- The attention weight of key k for query s. -/
theorem weights (x0 : TX) (x1 x2 : TW) (b : Fin 4) (h : Fin 16) (s k : Fin 2048) :
    val_main_v22 (F := Ideal) x0 x1 x2 (ix4 b h s k) = weight x0 x1 x2 b h s k := by
  rw [val_main_v22_apply, val_main_v21_apply, val_main_v20_apply, sum_row_idx, row_sum, shifted_exp]
  rfl

/-! ## The heads' outputs, side by side again, and the last projection -/

/-- Entry e of head h's output at position s: the weighted sum of the value rows. -/
theorem heads (x0 : TX) (x1 x2 x3 : TW) (b : Fin 4) (h : Fin 16) (s : Fin 2048) (e : Fin 64) :
    val_main_v23 (F := Ideal) x0 x1 x2 x3 (ix4 b h s e) = head x0 x1 x2 x3 b h s e := by
  have hl : ∀ k : Fin 2048, lidx_main_v23 (ix4 b h s e) k = ix4 b h s k := fun k => funext fun a => by
    match a with | ⟨0, _⟩ => rfl | ⟨1, _⟩ => rfl | ⟨2, _⟩ => rfl | ⟨3, _⟩ => rfl
  have hr : ∀ k : Fin 2048, ridx_main_v23 (ix4 b h s e) k = ix4 b h k e := fun k => funext fun a => by
    match a with | ⟨0, _⟩ => rfl | ⟨1, _⟩ => rfl | ⟨2, _⟩ => rfl | ⟨3, _⟩ => rfl
  rw [val_main_v23_apply]
  unfold head
  exact Finset.sum_congr rfl fun k _ => by rw [hl k, hr k, weights, v_head]

/-- The heads side by side again. -/
theorem merged_rows (x0 : TX) (x1 x2 x3 : TW) (b : Fin 4) (s : Fin 2048) (d : Fin 1024) :
    val_main_v25 (F := Ideal) x0 x1 x2 x3 (ix3 b s d) = merged x0 x1 x2 x3 b s d := by
  rw [val_main_v25_apply, val_main_v24_apply, merge_idx, heads]
  rfl

/-- The result at (b, s, o). -/
theorem out_rows (x0 : TX) (x1 x2 x3 x4 : TW) (x5 : TB) (b : Fin 4) (s : Fin 2048) (o : Fin 1024) :
    val_main_v29 (F := Ideal) x0 x1 x2 x3 x4 x5 (ix3 b s o) = outAt x0 x1 x2 x3 x4 x5 b s o := by
  have hl : ∀ d : Fin 1024, lidx_main_v26 (ix3 b s o) d = ix3 b s d := fun d => funext fun a => by
    match a with | ⟨0, _⟩ => rfl | ⟨1, _⟩ => rfl | ⟨2, _⟩ => rfl
  have hr : ∀ d : Fin 1024, ridx_main_v26 (ix3 b s o) d = ix2 o d := fun d => funext fun a => by
    match a with | ⟨0, _⟩ => rfl | ⟨1, _⟩ => rfl
  rw [val_main_v29_apply, val_main_v28_apply, val_main_v27_apply, bias_idx, val_main_v26_apply]
  unfold outAt
  show (∑ d : Fin 1024, _) + _ = _
  exact congrArg (· + x5 (ix1 o)) (Finset.sum_congr rfl fun d _ => by rw [hl d, hr d, merged_rows])

/-! ## The reference's result is the specification -/

/-- The last stage of the reference, as one array, is the specification of its six arguments. -/
theorem value_eq (x0 : TX) (x1 x2 x3 x4 : TW) (x5 : TB) :
    val_main_v29 (F := Ideal) x0 x1 x2 x3 x4 x5 = Cert.Attn.out x0 x1 x2 x3 x4 x5 := by
  funext i
  obtain ⟨b, s, o, rfl⟩ : ∃ (b : Fin 4) (s : Fin 2048) (o : Fin 1024), i = ix3 b s o := ⟨i 0, i 1, i 2, eq_ix3 i⟩
  exact (out_rows x0 x1 x2 x3 x4 x5 b s o).trans (out_ix3 x0 x1 x2 x3 x4 x5 b s o).symm

/-- The reference's run leaves the specification of the launch contents of its six arguments in its result. -/
theorem result_eq (m : (l : Loc nD τ sig) → Buf (Elt Ideal) l) (c : Dev nD) :
    Cert.ReferenceIdeal.Value.res_out0 (F := Ideal) m c
      = Cert.Attn.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v29_eq (F := Ideal) m c).trans (value_eq _ _ _ _ _ _)

end Cert.ReferenceIdeal.RefValue

end
-- ==== Proof.lean ====
/-
  Multi-head attention as three kernel regions — a fused query/key/value projection, attention per pair of heads, the
  output projection — against the plain reference, over the extended reals.

  The three frames: each kernel program runs as a chain of four host stretches and three regions, and no segment writes
  an argument array; the reference is a straight line of host operations. The idealization rewrote nothing. The two
  idealized programs agree: the kernel's result array and the reference's are both the one specification of the
  argument arrays — the projections as inner products over the 1024 features, the scores as inner products over a
  head's 64 entries scaled by 1/8 (before the sum on one side, after it on the other: a nonnegative finite factor moves
  across a finite sum), a softmax over the 2048 keys, the weighted sum of value rows, the output projection and bias.
-/
import proofs.«162190_j88794153877525_2_alg».proof.Defs
import proofs.«162190_j88794153877525_2_alg».proof.Proof.Gen.Kernel
import proofs.«162190_j88794153877525_2_alg».proof.Proof.Gen.KernelIdeal
import proofs.«162190_j88794153877525_2_alg».proof.Proof.Gen.ReferenceIdeal
import proofs.«162190_j88794153877525_2_alg».proof.Proof.Gen.Pre_finite_inputs
import proofs.«162190_j88794153877525_2_alg».proof.Proof.Gen.ReferenceIdeal.Run
import proofs.«162190_j88794153877525_2_alg».proof.Proof.Gen.ReferenceIdeal.Read
import proofs.«162190_j88794153877525_2_alg».proof.Proof.RunMainK
import proofs.«162190_j88794153877525_2_alg».proof.Proof.RunMain
import proofs.«162190_j88794153877525_2_alg».proof.Proof.KValue
import proofs.«162190_j88794153877525_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at the specification of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact Cert.KernelIdeal.Hand.run_value m ρ
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v29 (F := Ideal) m' c = Cert.ReferenceIdeal.Value.res_out0 (F := Ideal) m' c from rfl,
      Cert.ReferenceIdeal.RefValue.result_eq m' c,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
